-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S100x128 : Shape := ⟨2, ![100, 128]⟩
abbrev S100 : Shape := ⟨1, ![100]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S100x128 : S_.BroadcastsInDim S100x128 (![] : Fin 0 → Fin S100x128.rank)
  reducesTo_S100x128_S_d0_1 : S100x128.ReducesTo [0, 1] S_
  bcast_S_S100 : S_.BroadcastsInDim S100 (![] : Fin 0 → Fin S100.rank)
  reducesTo_S100_S_d0 : S100.ReducesTo [0] S_

variable [Facts]

def fn_part1 {F : FTy → Type} [FloatOps F] (main_arg2 : FVec F S100 .f32) (main_arg4 : FVec F S100 .f32) (main_v13 : IVec S_ 1) (main_v16 : IVec S100 1) : IVec S_ 1 :=
  let main_c_5 : IVec S_ 1 := constantI S_ 1 1#1
  let main_v17 : IVec S_ 1 := (fun x v => Host.reduce IntOp.andi x v reducesTo_S100_S_d0 h_S_) main_v16 main_c_5
  let main_v18 : IVec S_ 1 := andi main_v13 main_v17
  let main_v19 : FVec F S100 .f32 := Host.absf main_arg4
  let main_cst_6 : FVec F S_ .f32 := constant S_ .f32 0x7F800000#32
  let main_v20 : FVec F S100 .f32 := broadcastInDim S100 ![] bcast_S_S100 main_cst_6
  let main_v21 : IVec S100 1 := cmpf .olt main_v19 main_v20
  let main_c_7 : IVec S_ 1 := constantI S_ 1 1#1
  let main_v22 : IVec S_ 1 := (fun x v => Host.reduce IntOp.andi x v reducesTo_S100_S_d0 h_S_) main_v21 main_c_7
  let main_v23 : IVec S_ 1 := andi main_v18 main_v22
  let main_cst_8 : FVec F S_ .f32 := constant S_ .f32 0x00000000#32
  let main_v24 : FVec F S100 .f32 := broadcastInDim S100 ![] bcast_S_S100 main_cst_8
  let main_v25 : IVec S100 1 := cmpf .oge main_arg2 main_v24
  let main_c_9 : IVec S_ 1 := constantI S_ 1 1#1
  let main_v26 : IVec S_ 1 := (fun x v => Host.reduce IntOp.andi x v reducesTo_S100_S_d0 h_S_) main_v25 main_c_9
  let main_v27 : IVec S_ 1 := andi main_v23 main_v26
  main_v27

def fn {F : FTy → Type} [FloatOps F] (main_arg0 : FVec F S262144x128 .f32) (main_arg1 : FVec F S100x128 .f32) (main_arg2 : FVec F S100 .f32) (main_arg3 : FVec F S100 .f32) (main_arg4 : FVec F S100 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S100x128 .f32 := Host.absf main_arg1
  let main_cst_0 : FVec F S_ .f32 := constant S_ .f32 0x7F800000#32
  let main_v5 : FVec F S100x128 .f32 := broadcastInDim S100x128 ![] bcast_S_S100x128 main_cst_0
  let main_v6 : IVec S100x128 1 := cmpf .olt main_v4 main_v5
  let main_c_1 : IVec S_ 1 := constantI S_ 1 1#1
  let main_v7 : IVec S_ 1 := (fun x v => Host.reduce IntOp.andi x v reducesTo_S100x128_S_d0_1 h_S_) main_v6 main_c_1
  let main_v8 : IVec S_ 1 := andi main_v3 main_v7
  let main_v9 : FVec F S100 .f32 := Host.absf main_arg2
  let main_cst_2 : FVec F S_ .f32 := constant S_ .f32 0x7F800000#32
  let main_v10 : FVec F S100 .f32 := broadcastInDim S100 ![] bcast_S_S100 main_cst_2
  let main_v11 : IVec S100 1 := cmpf .olt main_v9 main_v10
  let main_c_3 : IVec S_ 1 := constantI S_ 1 1#1
  let main_v12 : IVec S_ 1 := (fun x v => Host.reduce IntOp.andi x v reducesTo_S100_S_d0 h_S_) main_v11 main_c_3
  let main_v13 : IVec S_ 1 := andi main_v8 main_v12
  let main_v14 : FVec F S100 .f32 := Host.absf main_arg3
  let main_cst_4 : FVec F S_ .f32 := constant S_ .f32 0x7F800000#32
  let main_v15 : FVec F S100 .f32 := broadcastInDim S100 ![] bcast_S_S100 main_cst_4
  let main_v16 : IVec S100 1 := cmpf .olt main_v14 main_v15
  fn_part1 (F := F) main_arg2 main_arg4 main_v13 main_v16
-- ==== Kernel.lean ====
abbrev S262144x128 : Shape := ⟨2, ![262144, 128]⟩
abbrev S100x128 : Shape := ⟨2, ![100, 128]⟩
abbrev S100 : Shape := ⟨1, ![100]⟩
abbrev S_ : Shape := ⟨0, ![]⟩
abbrev S1x100 : Shape := ⟨2, ![1, 100]⟩
abbrev S4x100 : Shape := ⟨2, ![4, 100]⟩
abbrev S262144x101 : Shape := ⟨2, ![262144, 101]⟩
abbrev S8192x128 : Shape := ⟨2, ![8192, 128]⟩
abbrev S8192x101 : Shape := ⟨2, ![8192, 101]⟩
abbrev S8192 : Shape := ⟨1, ![8192]⟩
abbrev S8192x1 : Shape := ⟨2, ![8192, 1]⟩
abbrev S128x100 : Shape := ⟨2, ![128, 100]⟩
abbrev S8192x100 : Shape := ⟨2, ![8192, 100]⟩

abbrev nBuf : Space → Nat
  | .hbm => 17
  | .vmem => 6
  | .smem => 0
  | _ => 0

abbrev bufTy : (tb : Table) → Fin (tcTables nBuf tb) → BufTy
  | .hbm, ⟨0, _⟩ => ⟨S262144x128, .f32⟩
  | .hbm, ⟨1, _⟩ => ⟨S100x128, .f32⟩
  | .hbm, ⟨2, _⟩ => ⟨S100, .f32⟩
  | .hbm, ⟨3, _⟩ => ⟨S100, .f32⟩
  | .hbm, ⟨4, _⟩ => ⟨S100, .f32⟩
  | .hbm, ⟨5, _⟩ => ⟨S100x128, .f32⟩
  | .hbm, ⟨6, _⟩ => ⟨S_, .f32⟩
  | .hbm, ⟨7, _⟩ => ⟨S100, .f32⟩
  | .hbm, ⟨8, _⟩ => ⟨S_, .f32⟩
  | .hbm, ⟨9, _⟩ => ⟨S100, .f32⟩
  | .hbm, ⟨10, _⟩ => ⟨S100, .f32⟩
  | .hbm, ⟨11, _⟩ => ⟨S1x100, .f32⟩
  | .hbm, ⟨12, _⟩ => ⟨S1x100, .f32⟩
  | .hbm, ⟨13, _⟩ => ⟨S1x100, .f32⟩
  | .hbm, ⟨14, _⟩ => ⟨S1x100, .f32⟩
  | .hbm, ⟨15, _⟩ => ⟨S4x100, .f32⟩
  | .hbm, ⟨16, _⟩ => ⟨S262144x101, .f32⟩
  | .local _ .vmem, ⟨0, _⟩ => ⟨S8192x128, .f32⟩
  | .local _ .vmem, ⟨1, _⟩ => ⟨S8192x128, .f32⟩
  | .local _ .vmem, ⟨2, _⟩ => ⟨S100x128, .f32⟩
  | .local _ .vmem, ⟨3, _⟩ => ⟨S4x100, .f32⟩
  | .local _ .vmem, ⟨4, _⟩ => ⟨S8192x101, .f32⟩
  | .local _ .vmem, ⟨5, _⟩ => ⟨S8192x101, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S100x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x100 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8192x101 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S100x128_S100_d1 : S100x128.ReducesTo [1] S100
  h_S_ : 0 < S_.numel
  bcast_S_S100 : S_.BroadcastsInDim S100 (![] : Fin 0 → Fin S100.rank)
  bcast_S100_S1x100_1 : S100.BroadcastsInDim S1x100 (![1] : Fin 1 → Fin S1x100.rank)
  concatenates_S1x100_S1x100_S1x100_S1x100_S4x100_d0 : Shape.Concatenates [S1x100, S1x100, S1x100, S1x100] S4x100 0
  inb_S8192x128_S8192x128_0_0 : ∀ a, (![0, 0] : Fin 2 → Nat) a + S8192x128.size a ≤ S8192x128.size a
  h_S8192x128 : 0 < S8192x128.numel
  inb_S100x128_S100x128_0_0 : ∀ a, (![0, 0] : Fin 2 → Nat) a + S100x128.size a ≤ S100x128.size a
  h_S100x128 : 0 < S100x128.numel
  reduces_S8192x128_S8192 : S8192x128.Reduces [1] S8192
  shapeCasts_S8192_S8192x1 : S8192.ShapeCasts S8192x1
  bitsLt_bf16_f32 : FTy.bits .bf16 < FTy.bits .f32
  transposes_S100x128_p1_0_S128x100 : S100x128.Transposes [1, 0] S128x100
  inb_S4x100_S1x100_0_0 : ∀ a, (![0, 0] : Fin 2 → Nat) a + S1x100.size a ≤ S4x100.size a
  h_S1x100 : 0 < S1x100.numel
  shapeCasts_S1x100_S1x100 : S1x100.ShapeCasts S1x100
  inb_S4x100_S1x100_1_0 : ∀ a, (![1, 0] : Fin 2 → Nat) a + S1x100.size a ≤ S4x100.size a
  inb_S4x100_S1x100_2_0 : ∀ a, (![2, 0] : Fin 2 → Nat) a + S1x100.size a ≤ S4x100.size a
  inb_S4x100_S1x100_3_0 : ∀ a, (![3, 0] : Fin 2 → Nat) a + S1x100.size a ≤ S4x100.size a
  broadcasts_S8192x1_S8192x100 : S8192x1.Broadcasts S8192x100
  broadcasts_S1x100_S8192x100 : S1x100.Broadcasts S8192x100
  reduces_S8192x100_S8192 : S8192x100.Reduces [1] S8192
  concatenates_S8192x100_S8192x1_S8192x101_d1 : Shape.Concatenates [S8192x100, S8192x1] S8192x101 1
  inb_S8192x101_S8192x101_0_0 : ∀ a, (![0, 0] : Fin 2 → Nat) a + S8192x101.size a ≤ S8192x101.size a
  h_S8192x101 : 0 < S8192x101.numel
  dot_S8192x128_S128x100_S8192x100_1_0_0_1_n_n_wf : DotDims.WF S8192x128 S128x100 S8192x100 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S262144x128.size a
  hwx0_0 : ∀ i : grid0.Coords, EltTy.bits .f32 = 32 ∨ (Rect.block (s := S262144x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S100x128.size a ≤ S100x128.size a
  hwx0_1 : ∀ i : grid0.Coords, EltTy.bits .f32 = 32 ∨ (Rect.block (s := S100x128) S100x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S4x100.size a ≤ S4x100.size a
  hwx0_2 : ∀ i : grid0.Coords, EltTy.bits .f32 = 32 ∨ (Rect.block (s := S4x100) S4x100.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8192x101.size a ≤ S262144x101.size a
  hwx0_3 : ∀ i : grid0.Coords, EltTy.bits .f32 = 32 ∨ (Rect.block (s := S262144x101) S8192x101.size (cc0_transform_3 i) (hinb0_3 i)).WholeWords (EltTy.packing .f32)

variable [Facts₀]

def dot_S8192x128_S128x100_S8192x100_1_0_0_1_n_n : DotDims S8192x128 S128x100 S8192x100 where
  lhsContracting := [1]
  rhsContracting := [0]
  lhsNonContracting := [0]
  rhsNonContracting := [1]
  lhsBatch := []
  rhsBatch := []
  wf := dot_S8192x128_S128x100_S8192x100_1_0_0_1_n_n_wf

abbrev win0_0 : Pipeline.Window sig grid0 :=
  Pipeline.Window.ofSpec (Memref.whole main_arg0) S8192x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S100x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v8) S4x100.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v9) S8192x101.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S262144x128 : Shape := ⟨2, ![262144, 128]⟩
abbrev S100x128 : Shape := ⟨2, ![100, 128]⟩
abbrev S100 : Shape := ⟨1, ![100]⟩
abbrev S_ : Shape := ⟨0, ![]⟩
abbrev S262144 : Shape := ⟨1, ![262144]⟩
abbrev S262144x1 : Shape := ⟨2, ![262144, 1]⟩
abbrev S1x100 : Shape := ⟨2, ![1, 100]⟩
abbrev S262144x100 : Shape := ⟨2, ![262144, 100]⟩
abbrev S128x100 : Shape := ⟨2, ![128, 100]⟩
abbrev S262144x101 : Shape := ⟨2, ![262144, 101]⟩

abbrev nBuf : Space → Nat
  | .hbm => 53
  | .vmem => 0
  | .smem => 0
  | _ => 0

abbrev bufTy : (tb : Table) → Fin (tcTables nBuf tb) → BufTy
  | .hbm, ⟨0, _⟩ => ⟨S262144x128, .f32⟩
  | .hbm, ⟨1, _⟩ => ⟨S100x128, .f32⟩
  | .hbm, ⟨2, _⟩ => ⟨S100, .f32⟩
  | .hbm, ⟨3, _⟩ => ⟨S100, .f32⟩
  | .hbm, ⟨4, _⟩ => ⟨S100, .f32⟩
  | .hbm, ⟨5, _⟩ => ⟨S262144x128, .f32⟩
  | .hbm, ⟨6, _⟩ => ⟨S_, .f32⟩
  | .hbm, ⟨7, _⟩ => ⟨S262144, .f32⟩
  | .hbm, ⟨8, _⟩ => ⟨S262144x1, .f32⟩
  | .hbm, ⟨9, _⟩ => ⟨S100x128, .f32⟩
  | .hbm, ⟨10, _⟩ => ⟨S_, .f32⟩
  | .hbm, ⟨11, _⟩ => ⟨S100, .f32⟩
  | .hbm, ⟨12, _⟩ => ⟨S1x100, .f32⟩
  | .hbm, ⟨13, _⟩ => ⟨S262144x100, .f32⟩
  | .hbm, ⟨14, _⟩ => ⟨S262144x100, .f32⟩
  | .hbm, ⟨15, _⟩ => ⟨S262144x100, .f32⟩
  | .hbm, ⟨16, _⟩ => ⟨S128x100, .f32⟩
  | .hbm, ⟨17, _⟩ => ⟨S262144x100, .f32⟩
  | .hbm, ⟨18, _⟩ => ⟨S_, .f32⟩
  | .hbm, ⟨19, _⟩ => ⟨S262144x100, .f32⟩
  | .hbm, ⟨20, _⟩ => ⟨S262144x100, .f32⟩
  | .hbm, ⟨21, _⟩ => ⟨S262144x100, .f32⟩
  | .hbm, ⟨22, _⟩ => ⟨S_, .f32⟩
  | .hbm, ⟨23, _⟩ => ⟨S262144x100, .f32⟩
  | .hbm, ⟨24, _⟩ => ⟨S262144x100, .f32⟩
  | .hbm, ⟨25, _⟩ => ⟨S262144x100, .f32⟩
  | .hbm, ⟨26, _⟩ => ⟨S1x100, .f32⟩
  | .hbm, ⟨27, _⟩ => ⟨S262144x100, .f32⟩
  | .hbm, ⟨28, _⟩ => ⟨S262144x100, .f32⟩
  | .hbm, ⟨29, _⟩ => ⟨S1x100, .f32⟩
  | .hbm, ⟨30, _⟩ => ⟨S262144x100, .f32⟩
  | .hbm, ⟨31, _⟩ => ⟨S262144x100, .f32⟩
  | .hbm, ⟨32, _⟩ => ⟨S_, .f32⟩
  | .hbm, ⟨33, _⟩ => ⟨S262144x100, .f32⟩
  | .hbm, ⟨34, _⟩ => ⟨S262144x100, .f32⟩
  | .hbm, ⟨35, _⟩ => ⟨S1x100, .f32⟩
  | .hbm, ⟨36, _⟩ => ⟨S262144x100, .f32⟩
  | .hbm, ⟨37, _⟩ => ⟨S262144x100, .f32⟩
  | .hbm, ⟨38, _⟩ => ⟨S262144x100, .f32⟩
  | .hbm, ⟨39, _⟩ => ⟨S262144x100, .f32⟩
  | .hbm, ⟨40, _⟩ => ⟨S_, .f32⟩
  | .hbm, ⟨41, _⟩ => ⟨S262144x100, .f32⟩
  | .hbm, ⟨42, _⟩ => ⟨S262144x100, .f32⟩
  | .hbm, ⟨43, _⟩ => ⟨S262144x100, .f32⟩
  | .hbm, ⟨44, _⟩ => ⟨S262144x100, .f32⟩
  | .hbm, ⟨45, _⟩ => ⟨S262144x100, .f32⟩
  | .hbm, ⟨46, _⟩ => ⟨S_, .f32⟩
  | .hbm, ⟨47, _⟩ => ⟨S262144, .f32⟩
  | .hbm, ⟨48, _⟩ => ⟨S262144x1, .f32⟩
  | .hbm, ⟨49, _⟩ => ⟨S_, .f32⟩
  | .hbm, ⟨50, _⟩ => ⟨S262144x1, .f32⟩
  | .hbm, ⟨51, _⟩ => ⟨S262144x1, .f32⟩
  | .hbm, ⟨52, _⟩ => ⟨S262144x101, .f32⟩
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_1 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_3 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩

abbrev nD : Nat := 1
abbrev τ : Topo := Topo.v7x

variable {F : FTy → Type} [FloatOps F]

class Facts₀ : Prop where
  reducesTo_S262144x128_S262144_d1 : S262144x128.ReducesTo [1] S262144
  h_S_ : 0 < S_.numel
  bcast_S262144_S262144x1_0 : S262144.BroadcastsInDim S262144x1 (![0] : Fin 1 → Fin S262144x1.rank)
  reducesTo_S100x128_S100_d1 : S100x128.ReducesTo [1] S100
  bcast_S100_S1x100_1 : S100.BroadcastsInDim S1x100 (![1] : Fin 1 → Fin S1x100.rank)
  bcast_S262144x1_S262144x100_0_1 : S262144x1.BroadcastsInDim S262144x100 (![0, 1] : Fin 2 → Fin S262144x100.rank)
  bcast_S1x100_S262144x100_0_1 : S1x100.BroadcastsInDim S262144x100 (![0, 1] : Fin 2 → Fin S262144x100.rank)
  transposes_S100x128_S128x100_1_0 : S100x128.Transposes [1, 0] S128x100
  bcast_S_S262144x100 : S_.BroadcastsInDim S262144x100 (![] : Fin 0 → Fin S262144x100.rank)
  reducesTo_S262144x100_S262144_d1 : S262144x100.ReducesTo [1] S262144
  bcast_S_S262144x1 : S_.BroadcastsInDim S262144x1 (![] : Fin 0 → Fin S262144x1.rank)
  concatenates_S262144x100_S262144x1_S262144x101_d1 : Shape.Concatenates [S262144x100, S262144x1] S262144x101 1
  dot_S262144x128_S128x100_S262144x100_1_0_0_1_n_n_wf : DotDims.WF S262144x128 S128x100 S262144x100 [1] [0] [0] [1] [] []

variable [Facts₀]

def dot_S262144x128_S128x100_S262144x100_1_0_0_1_n_n : DotDims S262144x128 S128x100 S262144x100 where
  lhsContracting := [1]
  rhsContracting := [0]
  lhsNonContracting := [0]
  rhsNonContracting := [1]
  lhsBatch := []
  rhsBatch := []
  wf := dot_S262144x128_S128x100_S262144x100_1_0_0_1_n_n_wf

class Facts : Prop extends Facts₀ where

variable [Facts]
-- ==== Proof.KernelLaunched.lean ====
/-
  The run of `Kernel`'s @main, at any float instance `F`.

  @main is eleven host operations (the squared norms of the class means, the reciprocal scales, and the four
  parameter rows stacked into one 4 x 100 array) followed by ONE pipelined region over 32 grid points. At point
  `t` the region stages rows `8192 t .. 8192 t + 8191` of the features (window 0), the whole class-mean matrix
  (window 1) and the whole parameter array (window 2), both of the latter fetched once, and writes back rows
  `8192 t ..` of the 262144 x 101 result (window 3). The body loads its three inputs whole (the parameter array
  row by row), computes one 8192 x 101 block, and stores it over the whole output buffer.

  This module supplies what the launch theorem of the pipeline library asks of such a program: the contents of
  every buffer when the region is entered, the block each window holds at a point, what the body leaves in the
  output buffer (one covering store), the body's triple, and from them the run: every weakly fair execution ends,
  faults nowhere, leaves each argument array as launched and the result array at the blocks the body left.
-/
import proofs.«104863_j13365938225589_2_alg».proof.Proof.Gen.Kernel.Launch
import proofs.«104863_j13365938225589_2_alg».proof.Proof.Gen.Kernel.Skeleton
import proofs.«104863_j13365938225589_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s HBM buffers after the eleven host operations, from the launch memory `m`. -/
abbrev atEntry (c : Dev nD) (b : Ref sig .tc) : Buf (Elt F) ((c : Thread nD τ).loc b) :=
  StableHlo.after hostOps0 (fun b => m (c, b)) b

/-- No host operation allocates. -/
theorem hostOps_allocate_nothing : (hostOps0 : List (HloOp τ sig (Elt F))).Forall fun op => op.fresh = ∅ := by
  simp only [List.Forall]; repeat' constructor

/-- @main is its host operations, then the region, entered at `atEntry`. -/
theorem main_reaches_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps_allocate_nothing main_chain

/-- A buffer no host operation writes is found as launched. Each host operation writes its one result buffer,
    `main_v0` … `main_v8` or a constant's, none of them an argument. -/
theorem atEntry_of_unwritten (c : Dev nD) (b : Ref sig .tc)
    (h : b ≠ main_v0 ∧ b ≠ main_cst ∧ b ≠ main_v1 ∧ b ≠ main_cst_0 ∧ b ≠ main_v2 ∧ b ≠ main_v3 ∧ b ≠ main_v4
      ∧ b ≠ main_v5 ∧ b ≠ main_v6 ∧ b ≠ main_v7 ∧ b ≠ main_v8) :
    atEntry m c b = m ((c : Thread nD τ).loc b) := by
  obtain ⟨h0, h1, h2, h3, h4, h5, h6, h7, h8, h9, h10⟩ := h
  refine StableHlo.after_of_forall_not_mem (b := Proc.devRef .tc b) _ _ (List.forall_iff_forall_mem.mp ?_)
  simp only [hostOps0, List.Forall, StableHlo.nullary_writes, StableHlo.unary_writes, StableHlo.binary_writes,
    StableHlo.nary_writes, Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5,
    StableHlo.devRef_ne_of_ne h6, StableHlo.devRef_ne_of_ne h7, StableHlo.devRef_ne_of_ne h8,
    StableHlo.devRef_ne_of_ne h9, StableHlo.devRef_ne_of_ne h10⟩

theorem atEntry_arg0 (c : Dev nD) : atEntry m c main_arg0 = m ((c : Thread nD τ).loc main_arg0) :=
  atEntry_of_unwritten m c main_arg0 (by decide)
theorem atEntry_arg1 (c : Dev nD) : atEntry m c main_arg1 = m ((c : Thread nD τ).loc main_arg1) :=
  atEntry_of_unwritten m c main_arg1 (by decide)
theorem atEntry_arg2 (c : Dev nD) : atEntry m c main_arg2 = m ((c : Thread nD τ).loc main_arg2) :=
  atEntry_of_unwritten m c main_arg2 (by decide)
theorem atEntry_arg3 (c : Dev nD) : atEntry m c main_arg3 = m ((c : Thread nD τ).loc main_arg3) :=
  atEntry_of_unwritten m c main_arg3 (by decide)
theorem atEntry_arg4 (c : Dev nD) : atEntry m c main_arg4 = m ((c : Thread nD τ).loc main_arg4) :=
  atEntry_of_unwritten m c main_arg4 (by decide)

/-! ## What each window holds at a point -/

/-- Window `w`'s block at point `t`, cut out of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The feature window's buffer holds rows `8192 t ..` at every point: it is fetched at every point. -/
theorem features_held {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The class means are fetched once; the body leaves them in place, so the buffer holds them at every point. -/
theorem means_held {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Likewise the stacked parameter rows. -/
theorem params_held {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The rectangles the body touches: each buffer whole, the parameter buffer one row at a time. -/
abbrev allFeatures : Rect S8192x128 := Rect.unit (s := S8192x128) ![0, 0] S8192x128.size inb_S8192x128_S8192x128_0_0
abbrev allMeans : Rect S100x128 := Rect.unit (s := S100x128) ![0, 0] S100x128.size inb_S100x128_S100x128_0_0
abbrev paramRow0 : Rect S4x100 := Rect.unit (s := S4x100) ![0, 0] S1x100.size inb_S4x100_S1x100_0_0
abbrev paramRow1 : Rect S4x100 := Rect.unit (s := S4x100) ![1, 0] S1x100.size inb_S4x100_S1x100_1_0
abbrev paramRow2 : Rect S4x100 := Rect.unit (s := S4x100) ![2, 0] S1x100.size inb_S4x100_S1x100_2_0
abbrev paramRow3 : Rect S4x100 := Rect.unit (s := S4x100) ![3, 0] S1x100.size inb_S4x100_S1x100_3_0
abbrev allOut : Rect S8192x101 := Rect.unit (s := S8192x101) ![0, 0] S8192x101.size inb_S8192x101_S8192x101_0_0

/-- The 8192 x 101 block the body computes from the contents `x`, `mv`, `p` of its three input buffers. -/
def computed (x : Vec F S8192x128 .f32) (mv : Vec F S100x128 .f32) (p : Vec F S4x100 .f32) : Vec F S8192x101 .f32 :=
  k0_pay1 (k0_pay3 (View.ld x allFeatures) (View.ld mv allMeans) (View.ld p paramRow0))
    (k0_pay4 (View.ld x allFeatures) (View.ld mv allMeans) (View.ld p paramRow0) (View.ld p paramRow1) (View.ld p paramRow2) (View.ld p paramRow3))
    (Scalar.ofBits .f32 0x00000000#32)

/-- The output buffer after the body: its one store, over the whole buffer. -/
def left (x : Vec F S8192x128 .f32) (mv : Vec F S100x128 .f32) (p : Vec F S4x100 .f32) : Vec F S8192x101 .f32 :=
  View.canon [⟨allOut, computed x mv p⟩]

/-- The one store covers the buffer. -/
theorem store_covers (p0 : Vec F S8192x101 .f32) (y : S8192x101.Idx) :
    ∃ pc ∈ ([⟨allOut, p0⟩] : List (View.Piece (Elt F) S8192x101 .f32)), y ∈ pc.1.set :=
  View.cover_of_tiled [⟨allOut, p0⟩] S8192x101.size (by rfl) y

set_option maxHeartbeats 1000000 in
/-- The body, on whole buffers holding `x`, `mv`, `p` and anything in the output's, runs to its end leaving the
    inputs as they were and the output's at `left x mv p`: six loads, a load of the output buffer whose value is
    not used, and the covering store. -/
theorem body_runs (c : Dev nD) (E : Set ℕ) (i : grid0.Coords)
    (arg1 : Memref sig .tc .vmem S8192x128 .f32) (harg1 : arg1.IsWhole) (arg2 : Memref sig .tc .vmem S100x128 .f32) (harg2 : arg2.IsWhole)
    (arg3 : Memref sig .tc .vmem S4x100 .f32) (harg3 : arg3.IsWhole) (arg4 : Memref sig .tc .vmem S8192x101 .f32) (harg4 : arg4.IsWhole)
    (x : Vec F S8192x128 .f32) (mv : Vec F S100x128 .f32) (p : Vec F S4x100 .f32) (K : PUnit → sProp 𝕄) :
    iprop(owns (c : Thread nD τ) arg1 fullShare x ∗ owns (c : Thread nD τ) arg2 fullShare mv ∗ owns (c : Thread nD τ) arg3 fullShare p
        ∗ (∃ d, owns (c : Thread nD τ) arg4 fullShare d)
        ∗ (iprop(owns (c : Thread nD τ) arg1 fullShare x ∗ owns (c : Thread nD τ) arg2 fullShare mv ∗ owns (c : Thread nD τ) arg3 fullShare p
            ∗ owns (c : Thread nD τ) arg4 fullShare (left x mv p)) -∗ K ⟨⟩))
      ⊢ wp frame (wpE (defs₀ (F := F)) Variants.none c none) E (cc0__openmax_kernel i arg1 harg1 arg2 harg2 arg3 harg3 arg4 harg4) K := by
  simp only [cc0__openmax_kernel_eq_skeleton]; unfold cc0__openmax_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (store_covers _)

/-! ## The proof data -/

/-- On core `c`: the arrays as the region finds them; after the body at point `t` each input buffer still at its
    block and the output buffer at `left` of the three input blocks; the region's invariant the scoped rest and
    the random-bit generator's register, untouched; nothing owed, full shares. -/
def data (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => left (blockAt m c 0 t) (blockAt m c 1 t) (blockAt m c 2 t)
  Φ _ := Pipeline.ΦA spec0 c
  q _ := fullShare
  owed _ := 0

theorem data_A (c : Dev nD) (w : Fin cfg0.W) : (data m 0 c).A w = atEntry m c (Pipeline.arrRef spec0 w) := by
  dsimp only [data]

theorem after_features (c : Dev nD) (t : Fin cfg0.N) : (data m 0 c).after 0 t = blockAt m c 0 t := by dsimp only [data]
theorem after_means (c : Dev nD) (t : Fin cfg0.N) : (data m 0 c).after 1 t = blockAt m c 1 t := by dsimp only [data]
theorem after_params (c : Dev nD) (t : Fin cfg0.N) : (data m 0 c).after 2 t = blockAt m c 2 t := by dsimp only [data]
theorem after_out (c : Dev nD) (t : Fin cfg0.N) :
    (data m 0 c).after 3 t = left (blockAt m c 0 t) (blockAt m c 1 t) (blockAt m c 2 t) := by dsimp only [data]

theorem before_features (c : Dev nD) (t : Fin cfg0.N) (d) : (data m 0 c).before 0 t d = blockAt m c 0 t :=
  features_held m (data m 0 c) (data_A m c 0) (after_features m c) t d
theorem before_means (c : Dev nD) (t : Fin cfg0.N) (d) : (data m 0 c).before 1 t d = blockAt m c 1 t :=
  means_held m (data m 0 c) (data_A m c 1) (after_means m c) t d
theorem before_params (c : Dev nD) (t : Fin cfg0.N) (d) : (data m 0 c).before 2 t d = blockAt m c 2 t :=
  params_held m (data m 0 c) (data_A m c 2) (after_params m c) t d

/-! ## The body at a grid point -/

/-- What the pipeline hands the body at point `t`, the windows one by one, -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d)))

/-- and what it takes back. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t))

/-- At any point the input buffers hold their blocks, so `body_runs` applies; the invariant passes through unread. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [before_features, before_means, before_params]
  rw [show (data m 0 c).Φ t.succ = (data m 0 c).Φ t.castSucc from rfl,
    show (data m 0 c).owesAt () t.succ = (data m 0 c).owesAt () t.castSucc from rfl,
    after_features, after_means, after_params, after_out]
  iintro ⟨HΦ, Ho, ⟨%d0, H0⟩, ⟨%d1, H1⟩, ⟨%d2, H2⟩, ⟨%d3, H3⟩⟩
  iapply (body_runs c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's obligation on the body, at every point. -/
theorem body_obligation (c : Dev nD) : BodyObligation (data (F := F) m 0 c) (defs₀ (F := F)) Variants.none () Set.univ := fun t => by
  rw [bigSep_W0, bigSep_W0]
  exact body_at_point m c t

/-! ## The run -/

set_option backward.isDefEq.respectTransparency.types false in
/-- From any memory with zero counters every weakly fair execution of @main terminates without a fault; at its end
    each window's array holds what the library computes from `data` (an input its entry contents, the result the
    written-back blocks) and every other unscoped buffer what it held when the region was entered. -/
theorem run : θ_run defs (onTc (τ := τ) (main (F := F))) (s₀ m ρ) (Pipeline.FramePost cfgs (data m) 0 (atEntry m)) :=
  Pipeline.θ_run_frame cfgs (data m) (0 : Fin 1) launch0 defs₀ Variants.none m ρ main
    (hbody := fun c => (body_obligation m c).loose) (hshare := fun c => (data m 0 c).share_full fun _ => rfl)
    (howed := fun _ _ => rfl) (V := atEntry m) (hmain := main_reaches_region m Variants.none) (hA := data_A m) (hΦ := fun _ _ => rfl)

/-- In a state the run may end in, the five argument arrays are as launched: the features and the class means are
    arrays of input windows, which the pipeline never writes; the three parameter vectors are no window's array and
    no host operation's result. -/
theorem kept_of_post (r : PUnit × MemSt nD τ sig (Elt F)) (h : Pipeline.FramePost cfgs (data m) 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((data m 0 c).arrAt_in 0 rfl _).trans ((data_A m c 0).trans (atEntry_arg0 m c))),
   ((h c).1 1).trans (((data m 0 c).arrAt_in 1 rfl _).trans ((data_A m c 1).trans (atEntry_arg1 m c))),
   ((h c).2 main_arg2 (Pipeline.mem_restRefs_of main_arg2 (by decide) (by decide))).trans (atEntry_arg2 m c),
   ((h c).2 main_arg3 (Pipeline.mem_restRefs_of main_arg3 (by decide) (by decide))).trans (atEntry_arg3 m c),
   ((h c).2 main_arg4 (Pipeline.mem_restRefs_of main_arg4 (by decide) (by decide))).trans (atEntry_arg4 m c)⟩

/-- So every weakly fair execution ends, without a fault, with the five argument arrays as launched. -/
theorem arguments_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept_of_post m r h c) (run m ρ)

end Cert.Kernel.Launched

end
-- ==== Proof.KernelIdealLaunched.lean ====
/-
  The run of `KernelIdeal`'s @main, at any float instance `F`.

  @main is eleven host operations (the squared norms of the class means, the reciprocal scales, and the four
  parameter rows stacked into one 4 x 100 array) followed by ONE pipelined region over 32 grid points. At point
  `t` the region stages rows `8192 t .. 8192 t + 8191` of the features (window 0), the whole class-mean matrix
  (window 1) and the whole parameter array (window 2), both of the latter fetched once, and writes back rows
  `8192 t ..` of the 262144 x 101 result (window 3). The body loads its three inputs whole (the parameter array
  row by row), computes one 8192 x 101 block, and stores it over the whole output buffer.

  This module supplies what the launch theorem of the pipeline library asks of such a program: the contents of
  every buffer when the region is entered, the block each window holds at a point, what the body leaves in the
  output buffer (one covering store), the body's triple, and from them the run: every weakly fair execution ends,
  faults nowhere, leaves each argument array as launched and the result array at the blocks the body left.
-/
import proofs.«104863_j13365938225589_2_alg».proof.Proof.Gen.KernelIdeal.Launch
import proofs.«104863_j13365938225589_2_alg».proof.Proof.Gen.KernelIdeal.Skeleton
import proofs.«104863_j13365938225589_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Launched

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s HBM buffers after the eleven host operations, from the launch memory `m`. -/
abbrev atEntry (c : Dev nD) (b : Ref sig .tc) : Buf (Elt F) ((c : Thread nD τ).loc b) :=
  StableHlo.after hostOps0 (fun b => m (c, b)) b

/-- No host operation allocates. -/
theorem hostOps_allocate_nothing : (hostOps0 : List (HloOp τ sig (Elt F))).Forall fun op => op.fresh = ∅ := by
  simp only [List.Forall]; repeat' constructor

/-- @main is its host operations, then the region, entered at `atEntry`. -/
theorem main_reaches_region (𝒱₀ : Variants) :
    Pipeline.HMain (Ix := Unit) (Name := ℕ) (U := UR sig nD τ) (Lvl := ℕ) cfgs 0 defs₀ 𝒱₀ m (main (F := F)) (atEntry m) :=
  Pipeline.hmain_prefix cfgs 0 defs₀ 𝒱₀ m main hostOps0 hostOps0_sub hostOps_allocate_nothing main_chain

/-- A buffer no host operation writes is found as launched. Each host operation writes its one result buffer,
    `main_v0` … `main_v8` or a constant's, none of them an argument. -/
theorem atEntry_of_unwritten (c : Dev nD) (b : Ref sig .tc)
    (h : b ≠ main_v0 ∧ b ≠ main_cst ∧ b ≠ main_v1 ∧ b ≠ main_cst_0 ∧ b ≠ main_v2 ∧ b ≠ main_v3 ∧ b ≠ main_v4
      ∧ b ≠ main_v5 ∧ b ≠ main_v6 ∧ b ≠ main_v7 ∧ b ≠ main_v8) :
    atEntry m c b = m ((c : Thread nD τ).loc b) := by
  obtain ⟨h0, h1, h2, h3, h4, h5, h6, h7, h8, h9, h10⟩ := h
  refine StableHlo.after_of_forall_not_mem (b := Proc.devRef .tc b) _ _ (List.forall_iff_forall_mem.mp ?_)
  simp only [hostOps0, List.Forall, StableHlo.nullary_writes, StableHlo.unary_writes, StableHlo.binary_writes,
    StableHlo.nary_writes, Finset.mem_singleton]
  exact ⟨StableHlo.devRef_ne_of_ne h0, StableHlo.devRef_ne_of_ne h1, StableHlo.devRef_ne_of_ne h2,
    StableHlo.devRef_ne_of_ne h3, StableHlo.devRef_ne_of_ne h4, StableHlo.devRef_ne_of_ne h5,
    StableHlo.devRef_ne_of_ne h6, StableHlo.devRef_ne_of_ne h7, StableHlo.devRef_ne_of_ne h8,
    StableHlo.devRef_ne_of_ne h9, StableHlo.devRef_ne_of_ne h10⟩

theorem atEntry_arg0 (c : Dev nD) : atEntry m c main_arg0 = m ((c : Thread nD τ).loc main_arg0) :=
  atEntry_of_unwritten m c main_arg0 (by decide)
theorem atEntry_arg1 (c : Dev nD) : atEntry m c main_arg1 = m ((c : Thread nD τ).loc main_arg1) :=
  atEntry_of_unwritten m c main_arg1 (by decide)
theorem atEntry_arg2 (c : Dev nD) : atEntry m c main_arg2 = m ((c : Thread nD τ).loc main_arg2) :=
  atEntry_of_unwritten m c main_arg2 (by decide)
theorem atEntry_arg3 (c : Dev nD) : atEntry m c main_arg3 = m ((c : Thread nD τ).loc main_arg3) :=
  atEntry_of_unwritten m c main_arg3 (by decide)
theorem atEntry_arg4 (c : Dev nD) : atEntry m c main_arg4 = m ((c : Thread nD τ).loc main_arg4) :=
  atEntry_of_unwritten m c main_arg4 (by decide)

/-! ## What each window holds at a point -/

/-- Window `w`'s block at point `t`, cut out of its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- The feature window's buffer holds rows `8192 t ..` at every point: it is fetched at every point. -/
theorem features_held {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
/-- The class means are fetched once; the body leaves them in place, so the buffer holds them at every point. -/
theorem means_held {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
/-- Likewise the stacked parameter rows. -/
theorem params_held {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)

/-! ## The body -/

/-- The rectangles the body touches: each buffer whole, the parameter buffer one row at a time. -/
abbrev allFeatures : Rect S8192x128 := Rect.unit (s := S8192x128) ![0, 0] S8192x128.size inb_S8192x128_S8192x128_0_0
abbrev allMeans : Rect S100x128 := Rect.unit (s := S100x128) ![0, 0] S100x128.size inb_S100x128_S100x128_0_0
abbrev paramRow0 : Rect S4x100 := Rect.unit (s := S4x100) ![0, 0] S1x100.size inb_S4x100_S1x100_0_0
abbrev paramRow1 : Rect S4x100 := Rect.unit (s := S4x100) ![1, 0] S1x100.size inb_S4x100_S1x100_1_0
abbrev paramRow2 : Rect S4x100 := Rect.unit (s := S4x100) ![2, 0] S1x100.size inb_S4x100_S1x100_2_0
abbrev paramRow3 : Rect S4x100 := Rect.unit (s := S4x100) ![3, 0] S1x100.size inb_S4x100_S1x100_3_0
abbrev allOut : Rect S8192x101 := Rect.unit (s := S8192x101) ![0, 0] S8192x101.size inb_S8192x101_S8192x101_0_0

/-- The 8192 x 101 block the body computes from the contents `x`, `mv`, `p` of its three input buffers. -/
def computed (x : Vec F S8192x128 .f32) (mv : Vec F S100x128 .f32) (p : Vec F S4x100 .f32) : Vec F S8192x101 .f32 :=
  k0_pay1 (k0_pay3 (View.ld x allFeatures) (View.ld mv allMeans) (View.ld p paramRow0))
    (k0_pay4 (View.ld x allFeatures) (View.ld mv allMeans) (View.ld p paramRow0) (View.ld p paramRow1) (View.ld p paramRow2) (View.ld p paramRow3))
    (Scalar.ofBits .f32 0x00000000#32)

/-- The output buffer after the body: its one store, over the whole buffer. -/
def left (x : Vec F S8192x128 .f32) (mv : Vec F S100x128 .f32) (p : Vec F S4x100 .f32) : Vec F S8192x101 .f32 :=
  View.canon [⟨allOut, computed x mv p⟩]

/-- The one store covers the buffer. -/
theorem store_covers (p0 : Vec F S8192x101 .f32) (y : S8192x101.Idx) :
    ∃ pc ∈ ([⟨allOut, p0⟩] : List (View.Piece (Elt F) S8192x101 .f32)), y ∈ pc.1.set :=
  View.cover_of_tiled [⟨allOut, p0⟩] S8192x101.size (by rfl) y

set_option maxHeartbeats 1000000 in
/-- The body, on whole buffers holding `x`, `mv`, `p` and anything in the output's, runs to its end leaving the
    inputs as they were and the output's at `left x mv p`: six loads, a load of the output buffer whose value is
    not used, and the covering store. -/
theorem body_runs (c : Dev nD) (E : Set ℕ) (i : grid0.Coords)
    (arg1 : Memref sig .tc .vmem S8192x128 .f32) (harg1 : arg1.IsWhole) (arg2 : Memref sig .tc .vmem S100x128 .f32) (harg2 : arg2.IsWhole)
    (arg3 : Memref sig .tc .vmem S4x100 .f32) (harg3 : arg3.IsWhole) (arg4 : Memref sig .tc .vmem S8192x101 .f32) (harg4 : arg4.IsWhole)
    (x : Vec F S8192x128 .f32) (mv : Vec F S100x128 .f32) (p : Vec F S4x100 .f32) (K : PUnit → sProp 𝕄) :
    iprop(owns (c : Thread nD τ) arg1 fullShare x ∗ owns (c : Thread nD τ) arg2 fullShare mv ∗ owns (c : Thread nD τ) arg3 fullShare p
        ∗ (∃ d, owns (c : Thread nD τ) arg4 fullShare d)
        ∗ (iprop(owns (c : Thread nD τ) arg1 fullShare x ∗ owns (c : Thread nD τ) arg2 fullShare mv ∗ owns (c : Thread nD τ) arg3 fullShare p
            ∗ owns (c : Thread nD τ) arg4 fullShare (left x mv p)) -∗ K ⟨⟩))
      ⊢ wp frame (wpE (defs₀ (F := F)) Variants.none c none) E (cc0__openmax_kernel i arg1 harg1 arg2 harg2 arg3 harg3 arg4 harg4) K := by
  simp only [cc0__openmax_kernel_eq_skeleton]; unfold cc0__openmax_kernel_skel
  simp only [k0_part1_eq_skeleton]; unfold k0_part1_skel
  unfold owns
  iintro ⟨⟨%f1, %hf1, H1⟩, ⟨%f2, %hf2, H2⟩, ⟨%f3, %hf3, H3⟩, ⟨%d4, %f4, -, H4⟩, Hk⟩
  subst hf1 hf2 hf3
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  try dsimp only
  exact View.read_writes_eq_canon _ _ _ (store_covers _)

/-! ## The proof data -/

/-- On core `c`: the arrays as the region finds them; after the body at point `t` each input buffer still at its
    block and the output buffer at `left` of the three input blocks; the region's invariant the scoped rest and
    the random-bit generator's register, untouched; nothing owed, full shares. -/
def data (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => left (blockAt m c 0 t) (blockAt m c 1 t) (blockAt m c 2 t)
  Φ _ := Pipeline.ΦA spec0 c
  q _ := fullShare
  owed _ := 0

theorem data_A (c : Dev nD) (w : Fin cfg0.W) : (data m 0 c).A w = atEntry m c (Pipeline.arrRef spec0 w) := by
  dsimp only [data]

theorem after_features (c : Dev nD) (t : Fin cfg0.N) : (data m 0 c).after 0 t = blockAt m c 0 t := by dsimp only [data]
theorem after_means (c : Dev nD) (t : Fin cfg0.N) : (data m 0 c).after 1 t = blockAt m c 1 t := by dsimp only [data]
theorem after_params (c : Dev nD) (t : Fin cfg0.N) : (data m 0 c).after 2 t = blockAt m c 2 t := by dsimp only [data]
theorem after_out (c : Dev nD) (t : Fin cfg0.N) :
    (data m 0 c).after 3 t = left (blockAt m c 0 t) (blockAt m c 1 t) (blockAt m c 2 t) := by dsimp only [data]

theorem before_features (c : Dev nD) (t : Fin cfg0.N) (d) : (data m 0 c).before 0 t d = blockAt m c 0 t :=
  features_held m (data m 0 c) (data_A m c 0) (after_features m c) t d
theorem before_means (c : Dev nD) (t : Fin cfg0.N) (d) : (data m 0 c).before 1 t d = blockAt m c 1 t :=
  means_held m (data m 0 c) (data_A m c 1) (after_means m c) t d
theorem before_params (c : Dev nD) (t : Fin cfg0.N) (d) : (data m 0 c).before 2 t d = blockAt m c 2 t :=
  params_held m (data m 0 c) (data_A m c 2) (after_params m c) t d

/-! ## The body at a grid point -/

/-- What the pipeline hands the body at point `t`, the windows one by one, -/
def handed (c : Dev nD) (t : Fin cfg0.N) : sProp 𝕄 :=
  iprop((data m 0 c).Φ t.castSucc ∗ (data m 0 c).owesAt () t.castSucc
    ∗ (∃ d, owns (c : Thread nD τ) (st0_0 t) fullShare ((data m 0 c).before 0 t d))
    ∗ (∃ d, owns (c : Thread nD τ) (st0_1 t) fullShare ((data m 0 c).before 1 t d))
    ∗ (∃ d, owns (c : Thread nD τ) (st0_2 t) fullShare ((data m 0 c).before 2 t d))
    ∗ (∃ d, owns (c : Thread nD τ) (st0_3 t) fullShare ((data m 0 c).before 3 t d)))

/-- and what it takes back. -/
def returned (c : Dev nD) (t : Fin cfg0.N) : sProp 𝕄 :=
  iprop((data m 0 c).Φ t.succ ∗ (data m 0 c).owesAt () t.succ
    ∗ owns (c : Thread nD τ) (st0_0 t) fullShare ((data m 0 c).after 0 t)
    ∗ owns (c : Thread nD τ) (st0_1 t) fullShare ((data m 0 c).after 1 t)
    ∗ owns (c : Thread nD τ) (st0_2 t) fullShare ((data m 0 c).after 2 t)
    ∗ owns (c : Thread nD τ) (st0_3 t) fullShare ((data m 0 c).after 3 t))

/-- At any point the input buffers hold their blocks, so `body_runs` applies; the invariant passes through unread. -/
theorem body_at_point (c : Dev nD) (t : Fin cfg0.N) :
    handed m c t ⊢ wp frame (wpE (defs₀ (F := F)) Variants.none c none) Set.univ (bodyAt0 t) (fun _ => returned m c t) := by
  unfold handed returned bodyAt0
  simp only [before_features, before_means, before_params]
  rw [show (data m 0 c).Φ t.succ = (data m 0 c).Φ t.castSucc from rfl,
    show (data m 0 c).owesAt () t.succ = (data m 0 c).owesAt () t.castSucc from rfl,
    after_features, after_means, after_params, after_out]
  iintro ⟨HΦ, Ho, ⟨%d0, H0⟩, ⟨%d1, H1⟩, ⟨%d2, H2⟩, ⟨%d3, H3⟩⟩
  iapply (body_runs c Set.univ _ _ _ _ _ _ _ _ _ (blockAt m c 0 t) (blockAt m c 1 t) (blockAt m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The pipeline library's obligation on the body, at every point. -/
theorem body_obligation (c : Dev nD) : BodyObligation (data (F := F) m 0 c) (defs₀ (F := F)) Variants.none () Set.univ := fun t => by
  rw [bigSep_W0, bigSep_W0]
  exact body_at_point m c t

/-! ## The run -/

set_option backward.isDefEq.respectTransparency.types false in
/-- From any memory with zero counters every weakly fair execution of @main terminates without a fault; at its end
    each window's array holds what the library computes from `data` (an input its entry contents, the result the
    written-back blocks) and every other unscoped buffer what it held when the region was entered. -/
theorem run : θ_run defs (onTc (τ := τ) (main (F := F))) (s₀ m ρ) (Pipeline.FramePost cfgs (data m) 0 (atEntry m)) :=
  Pipeline.θ_run_frame cfgs (data m) (0 : Fin 1) launch0 defs₀ Variants.none m ρ main
    (hbody := fun c => (body_obligation m c).loose) (hshare := fun c => (data m 0 c).share_full fun _ => rfl)
    (howed := fun _ _ => rfl) (V := atEntry m) (hmain := main_reaches_region m Variants.none) (hA := data_A m) (hΦ := fun _ _ => rfl)

/-- In a state the run may end in, the five argument arrays are as launched: the features and the class means are
    arrays of input windows, which the pipeline never writes; the three parameter vectors are no window's array and
    no host operation's result. -/
theorem kept_of_post (r : PUnit × MemSt nD τ sig (Elt F)) (h : Pipeline.FramePost cfgs (data m) 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).1 0).trans (((data m 0 c).arrAt_in 0 rfl _).trans ((data_A m c 0).trans (atEntry_arg0 m c))),
   ((h c).1 1).trans (((data m 0 c).arrAt_in 1 rfl _).trans ((data_A m c 1).trans (atEntry_arg1 m c))),
   ((h c).2 main_arg2 (Pipeline.mem_restRefs_of main_arg2 (by decide) (by decide))).trans (atEntry_arg2 m c),
   ((h c).2 main_arg3 (Pipeline.mem_restRefs_of main_arg3 (by decide) (by decide))).trans (atEntry_arg3 m c),
   ((h c).2 main_arg4 (Pipeline.mem_restRefs_of main_arg4 (by decide) (by decide))).trans (atEntry_arg4 m c)⟩

/-- So every weakly fair execution ends, without a fault, with the five argument arrays as launched. -/
theorem arguments_kept : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => kept_of_post m r h c) (run m ρ)

end Cert.KernelIdeal.Launched

end
-- ==== Proof.Weibull.lean ====
/-
  The mathematics that joins the two programs, on the extended reals and free of any program text.

  Both programs compute, for a feature row and a class, the distance `d` between them and then the class's
  open-set score. They differ in three places:

  * the scaled excess over the location: `(d - loc) * (1 / s)` against `(d - loc) / s`, then clamped below at `0`.
    Off `s = 0` the two are one product with `s⁻¹`. At `s = 0` the first is `(d - loc) * ⊤` and the second the
    quotient by zero: they agree at `⊤` above the location and both are negative infinities below it, and differ
    only AT the location (`0 * ⊤ = 0` against `0 / 0 = ⊥`) — where the clamp sends both to `0`;
  * the power `z ^ k` of the clamped excess `z ∈ [0, ⊤]`, as `exp (k * log z)` against the power function. For
    `0 < z < ⊤` that is the definition of the real power. At `z = 0` the logarithm is `⊥`, so for `k > 0` both
    are `0` and for `k = 0` both are `1`; at `z = ⊤` both are `⊤` or `1`. (For `k < 0` and `z = 0` they would
    differ, `⊤` against `0`: this is where a non-negative shape is used.)
  * the score `exp (-d) - exp (-(d + p))` against `exp (-d) * (1 - exp (-p))` with `p = z ^ k ∈ [0, ⊤]`: for a
    finite `d` the exponential of a sum is the product of the exponentials, and at `p = ⊤` both are `exp (-d)`.
-/
import Idealize.ShloMosaic.PureOps.Ideal
import Idealize.ShloMosaic.PureOps.Ideal.Laws

noncomputable section

namespace Cert.Openmax

open Idealize.ShloMosaic

/-! ## The constants the programs spell -/

/-- The word of `1.0` denotes `1`. -/
theorem word_one : Ideal.ofBits .f32 0x3F800000#32 = 1 := by
  simp [Ideal.ofBits, Ideal.ieee, -EReal.coe_mul]; norm_num

/-- The word of `2.0` denotes the real `2`. -/
theorem word_two : Ideal.ofBits .f32 0x40000000#32 = ((2 : ℝ) : EReal) := by
  simp [Ideal.ofBits, Ideal.ieee, -EReal.coe_mul]; norm_num

/-- The clamp under the square root, the float nearest `1e-12`, denotes a non-negative real. -/
theorem word_floor : ∃ e : ℝ, 0 ≤ e ∧ Ideal.ofBits .f32 0x2B8CBCCC#32 = (e : EReal) := by
  refine ⟨(9223372 : ℝ) * (2 : ℝ) ^ (-63 : ℤ), by positivity, ?_⟩
  simp [Ideal.ofBits, Ideal.ieee, -EReal.coe_mul]

/-! ## Finite sums of reals -/

/-- A finite sum of reals, taken in the extended reals, is the real sum. -/
theorem coe_sum {ι : Type} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-! ## The clamped, scaled excess -/

/-- A value clamped below at `0` is `⊤` or a non-negative real. -/
theorem clamp_cases (x : EReal) : max x 0 = ⊤ ∨ ∃ r : ℝ, 0 ≤ r ∧ max x 0 = (r : EReal) := by
  induction x using EReal.rec with
  | bot => exact .inr ⟨0, le_rfl, by simp⟩
  | coe x => exact .inr ⟨max x 0, le_max_right _ _, by rw [EReal.coe_strictMono.monotone.map_max, EReal.coe_zero]⟩
  | top => exact .inl (by simp)

/-- Multiplying by the reciprocal and dividing agree once clamped at `0`, for EVERY real scale, zero included. -/
theorem clamp_mul_recip (a s : ℝ) :
    max ((a : EReal) * Ideal.div 1 (s : EReal)) 0 = max (Ideal.div (a : EReal) (s : EReal)) 0 := by
  unfold Ideal.div
  by_cases hs : s = 0
  · subst hs
    rw [EReal.coe_zero, if_pos rfl, if_pos rfl, if_pos (by norm_num : (0 : EReal) < 1)]
    rcases lt_trichotomy a 0 with ha | ha | ha
    · rw [EReal.coe_mul_top_of_neg ha, if_neg (by exact_mod_cast not_lt.mpr ha.le)]
    · subst ha
      rw [EReal.coe_zero, zero_mul, if_neg (lt_irrefl _), max_self, max_eq_right bot_le]
    · rw [EReal.coe_mul_top_of_pos ha, if_pos (by exact_mod_cast ha)]
  · have hs' : (s : EReal) ≠ 0 := by exact_mod_cast hs
    rw [if_neg hs', if_neg hs', one_mul]

/-! ## The power, two ways -/

/-- `exp (k log z)` is `z ^ k` for a real `z ≥ 0` and a real `k ≥ 0`. -/
theorem exp_mul_log_coe {r k : ℝ} (hr : 0 ≤ r) (hk : 0 ≤ k) :
    Ideal.exp ((k : EReal) * Ideal.log (r : EReal)) = Ideal.pow (r : EReal) (k : EReal) := by
  rw [Ideal.pow_coe_coe, Ideal.log_coe]
  rcases hr.eq_or_lt with rfl | hr
  · rw [if_pos le_rfl]
    rcases hk.eq_or_lt with rfl | hk
    · rw [EReal.coe_zero, zero_mul, ← EReal.coe_zero, Ideal.exp_coe, Real.exp_zero]
      show _ = ((Real.rpow 0 0 : ℝ) : EReal)
      rw [show Real.rpow 0 0 = (0 : ℝ) ^ (0 : ℝ) from rfl, Real.rpow_zero]
    · rw [EReal.coe_mul_bot_of_pos hk, Ideal.exp_bot]
      show _ = ((Real.rpow 0 k : ℝ) : EReal)
      rw [show Real.rpow 0 k = (0 : ℝ) ^ k from rfl, Real.zero_rpow hk.ne', EReal.coe_zero]
  · rw [if_neg (not_le.mpr hr), ← EReal.coe_mul, Ideal.exp_coe]
    show _ = ((Real.rpow r k : ℝ) : EReal)
    rw [show Real.rpow r k = r ^ k from rfl, Real.rpow_def_of_pos hr, mul_comm]

/-- The same at `z = ⊤`. -/
theorem exp_mul_log_top {k : ℝ} (hk : 0 ≤ k) :
    Ideal.exp ((k : EReal) * Ideal.log ⊤) = Ideal.pow ⊤ (k : EReal) := by
  rw [Ideal.log_top, Ideal.pow_top]
  rcases hk.eq_or_lt with rfl | hk
  · rw [EReal.coe_zero, zero_mul, if_neg (lt_irrefl _), if_pos rfl, ← EReal.coe_zero, Ideal.exp_coe, Real.exp_zero, EReal.coe_one]
  · rw [EReal.coe_mul_top_of_pos hk, Ideal.exp_top, if_pos (by exact_mod_cast hk)]

/-- Whatever the power comes to, it is `⊤` or a real: never `⊥`. -/
theorem pow_cases {z : EReal} (hz : z = ⊤ ∨ ∃ r : ℝ, 0 ≤ r ∧ z = (r : EReal)) {k : ℝ} (hk : 0 ≤ k) :
    Ideal.pow z (k : EReal) = ⊤ ∨ ∃ p : ℝ, Ideal.pow z (k : EReal) = (p : EReal) := by
  rcases hz with rfl | ⟨r, -, rfl⟩
  · rw [Ideal.pow_top]
    rcases hk.eq_or_lt with rfl | hk
    · exact .inr ⟨1, by rw [EReal.coe_zero, if_neg (lt_irrefl _), if_pos rfl, EReal.coe_one]⟩
    · exact .inl (by rw [if_pos (by exact_mod_cast hk)])
  · exact .inr ⟨_, Ideal.pow_coe_coe r k⟩

/-! ## The score, two ways -/

/-- For a finite distance `d` and a power `p` that is `⊤` or real:
    `exp (0 - d) - exp (0 - (d + p)) = exp (-d) * (1 - exp (-p))`. -/
theorem score_eq (d : ℝ) {p : EReal} (hp : p = ⊤ ∨ ∃ q : ℝ, p = (q : EReal)) :
    Ideal.exp (0 - (d : EReal)) - Ideal.exp (0 - ((d : EReal) + p)) = Ideal.exp (-(d : EReal)) * (1 - Ideal.exp (-p)) := by
  rw [zero_sub, zero_sub]
  rcases hp with rfl | ⟨q, rfl⟩
  · rw [EReal.coe_add_top, EReal.neg_top, Ideal.exp_bot, sub_zero, sub_zero, mul_one]
  · rw [← EReal.coe_add, ← EReal.coe_neg, ← EReal.coe_neg, ← EReal.coe_neg, Ideal.exp_coe, Ideal.exp_coe, Ideal.exp_coe,
      ← EReal.coe_one, ← EReal.coe_sub, ← EReal.coe_sub, ← EReal.coe_mul, neg_add, Real.exp_add]
    congr 1; ring

/-! ## One entry of the result, the kernel's way and the reference's -/

/-- The kernel's entry from the distance `d`, the location, the RECIPROCAL scale and the shape. -/
def kernelEntry (d loc inv k : EReal) : EReal :=
  Ideal.exp (0 - d) - Ideal.exp (0 - (d + Ideal.exp (k * Ideal.log (max ((d - loc) * inv) 0))))

/-- The reference's entry from the distance, the location, the scale and the shape. -/
def referenceEntry (d loc s k : EReal) : EReal :=
  Ideal.exp (-d) * (1 - Ideal.exp (-(Ideal.pow (max (Ideal.div (d - loc) s) 0) k)))

/-- They are equal for a finite distance, finite parameters and a non-negative shape. -/
theorem kernelEntry_eq_referenceEntry (d loc s k : ℝ) (hk : 0 ≤ k) :
    kernelEntry d loc (Ideal.div 1 (s : EReal)) k = referenceEntry d loc s k := by
  unfold kernelEntry referenceEntry
  rw [← EReal.coe_sub, clamp_mul_recip]
  have hz := clamp_cases (Ideal.div ((d - loc : ℝ) : EReal) (s : EReal))
  have hpow : Ideal.exp ((k : EReal) * Ideal.log (max (Ideal.div ((d - loc : ℝ) : EReal) (s : EReal)) 0))
      = Ideal.pow (max (Ideal.div ((d - loc : ℝ) : EReal) (s : EReal)) 0) (k : EReal) := by
    rcases hz with h | ⟨r, hr, h⟩
    · rw [h]; exact exp_mul_log_top hk
    · rw [h]; exact exp_mul_log_coe hr hk
  rw [hpow]
  exact score_eq d (pow_cases hz hk)

end Cert.Openmax

end
-- ==== Proof.Rows.lean ====
/-
  One row of the result, the kernel's way and the reference's, and their equality on the reals.

  A feature row `x` (128 reals) meets each of the 100 class means `m c`. Both programs form the squared norms
  and the inner product as plain sums, the distance
  `d c = sqrt (max (|x|² + |m c|² - 2 <x, m c>) floor)`, the class's score from `d c` and its three parameters,
  and a last entry `1 - Σ c, score c`. The kernel receives `|m c|²` and the reciprocal scale ready-made (the host
  computes them before the launch); the reference computes the former itself and divides by the scale.
-/
import proofs.«104863_j13365938225589_2_alg».proof.Proof.Weibull

noncomputable section

namespace Cert.Openmax

open Idealize.ShloMosaic

/-- The squared norm of a row, summed from `0` as both programs spell it. -/
def sqNorm (r : Fin 128 → EReal) : EReal := 0 + ∑ k : Fin 128, r k * r k

/-- The inner product of two rows. -/
def inner (a b : Fin 128 → EReal) : EReal := ∑ k : Fin 128, a k * b k

/-- The clamped distance from the two squared norms and the inner product. -/
def dist (x2 m2 dot : EReal) : EReal :=
  Ideal.sqrt (max (x2 + m2 - Ideal.ofBits .f32 0x40000000#32 * dot) (Ideal.ofBits .f32 0x2B8CBCCC#32))

theorem sqNorm_coe (r : Fin 128 → ℝ) : sqNorm (fun k => (r k : EReal)) = ((∑ k : Fin 128, r k * r k : ℝ) : EReal) := by
  unfold sqNorm
  simp only [← EReal.coe_mul]
  rw [coe_sum, zero_add]

theorem inner_coe (a b : Fin 128 → ℝ) :
    inner (fun k => (a k : EReal)) (fun k => (b k : EReal)) = ((∑ k : Fin 128, a k * b k : ℝ) : EReal) := by
  unfold inner
  simp only [← EReal.coe_mul]
  rw [coe_sum]

/-- On reals the distance is a real: the clamp keeps the square root's argument non-negative. -/
theorem dist_coe (x2 m2 dot : ℝ) : ∃ d : ℝ, dist x2 m2 dot = (d : EReal) := by
  obtain ⟨e, he, hw⟩ := word_floor
  unfold dist
  rw [word_two, hw, ← EReal.coe_add, ← EReal.coe_mul, ← EReal.coe_sub, ← EReal.coe_strictMono.monotone.map_max,
    Ideal.sqrt_coe, if_neg (not_lt.mpr (le_max_of_le_right he))]
  exact ⟨_, rfl⟩

/-- The kernel's score of class `c`: squared class norms `m2` and reciprocal scales `inv` given. -/
def kernelScore (x : Fin 128 → EReal) (m : Fin 100 → Fin 128 → EReal) (m2 inv loc k : Fin 100 → EReal) (c : Fin 100) : EReal :=
  kernelEntry (dist (sqNorm x) (m2 c) (inner x (m c))) (loc c) (inv c) (k c)

/-- The reference's score of class `c`. -/
def referenceScore (x : Fin 128 → EReal) (m : Fin 100 → Fin 128 → EReal) (k loc s : Fin 100 → EReal) (c : Fin 100) : EReal :=
  referenceEntry (dist (sqNorm x) (sqNorm (m c)) (inner x (m c))) (loc c) (s c) (k c)

/-- A row of the result from its 100 scores: the scores, then one minus their sum (summed from `0`). -/
def rowOf (score : Fin 100 → EReal) (j : Fin 101) : EReal :=
  if h : j.val < 100 then score ⟨j.val, h⟩ else 1 - (0 + ∑ c : Fin 100, score c)

/-- On real arguments with non-negative shapes the two scores agree, when the kernel is given the squared class
    norms and the reciprocal scales the host computes for it. -/
theorem kernelScore_eq_referenceScore (x : Fin 128 → ℝ) (m : Fin 100 → Fin 128 → ℝ) (k loc s : Fin 100 → ℝ)
    (hk : ∀ c, 0 ≤ k c) :
    kernelScore (fun i => (x i : EReal)) (fun c i => (m c i : EReal)) (fun c => sqNorm (fun i => (m c i : EReal)))
        (fun c => Ideal.div 1 (s c : EReal)) (fun c => (loc c : EReal)) (fun c => (k c : EReal))
      = referenceScore (fun i => (x i : EReal)) (fun c i => (m c i : EReal)) (fun c => (k c : EReal))
        (fun c => (loc c : EReal)) (fun c => (s c : EReal)) := by
  funext c
  unfold kernelScore referenceScore
  dsimp only
  rw [sqNorm_coe, sqNorm_coe, inner_coe]
  obtain ⟨d, hd⟩ := dist_coe (∑ k : Fin 128, x k * x k) (∑ i : Fin 128, m c i * m c i) (∑ k : Fin 128, x k * m c k)
  rw [hd]
  exact kernelEntry_eq_referenceEntry d (loc c) (s c) (k c) (hk c)

end Cert.Openmax

end
-- ==== Proof.KernelIdealBlock.lean ====
/-
  The block the kernel body computes, read at an index, at the extended reals.

  From the 8192 x 128 feature block `x`, the class means `mv` and the four parameter rows `p0 .. p3` (squared class
  norms, reciprocal scales, locations, shapes) the body forms: the rows' squared norms by a lane sum kept as a
  column and broadcast over the classes; the inner products by a matrix product with the transposed class means
  into a zero accumulator; the clamped distance; the score of each class; and, joined on the right, one minus each
  row's sum of scores. Every operation but the lane sums, the product and the re-layings acts entry by entry.
-/
import proofs.«104863_j13365938225589_2_alg».proof.Proof.Gen.KernelIdeal.Skeleton
import proofs.«104863_j13365938225589_2_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Cert.KernelIdeal.Gen Idealize.ShloMosaic Idealize.ShloMosaic.ValueIdx
open Cert.Openmax

/-! ## The re-layings of a column -/

/-- A vector of row values kept as a column, then broadcast over the classes, reads at `(r, c)` the value of row `r`. -/
theorem column_over_classes (v : FVec Ideal S8192 .f32) (r : Fin 8192) (c : Fin 100) :
    broadcastTo S8192x100 (shapeCast S8192x1 v shapeCasts_S8192_S8192x1) broadcasts_S8192x1_S8192x100 (ix2 r c) = v (ix1 r) := by
  refine (broadcastTo_apply _ broadcasts_S8192x1_S8192x100 (ix2 r c) (ix2 r (0 : Fin 1)) fun a => ?_).trans ?_
  · match a with
    | ⟨0, _⟩ => show r.val = if (8192 : ℕ) = 1 then 0 else r.val; rw [if_neg (by decide)]
    | ⟨1, _⟩ => show 0 = if (1 : ℕ) = 1 then 0 else c.val; rw [if_pos rfl]
  refine shapeCast_apply _ shapeCasts_S8192_S8192x1 (ix2 r (0 : Fin 1)) (ix1 r) ?_
  rw [Shape.rowMajor_val_one, Shape.rowMajor_val_two]
  show r.val = r.val * 1 + 0
  omega

/-- The same column alone, at `(r, 0)`. -/
theorem column_apply (v : FVec Ideal S8192 .f32) (r : Fin 8192) :
    shapeCast S8192x1 v shapeCasts_S8192_S8192x1 (ix2 r (0 : Fin 1)) = v (ix1 r) := by
  refine shapeCast_apply _ shapeCasts_S8192_S8192x1 (ix2 r (0 : Fin 1)) (ix1 r) ?_
  rw [Shape.rowMajor_val_one, Shape.rowMajor_val_two]
  show r.val = r.val * 1 + 0
  omega

/-! ## The two lane sums -/

/-- The lane sum of the squares of a 128-wide block: row `r`'s squared norm, without a leading zero. -/
theorem sum_squares_apply (x : FVec Ideal S8192x128 .f32) (hφ : FKind.Formats FTy.f32)
    (hacc : (0x00000000#32 : BitVec FTy.f32.bits) = FKind.add.neutral .f32 hφ) (r : Fin 8192) :
    multiReduction .add [1] S8192 (mulf x x) 0x00000000#32 reduces_S8192x128_S8192 hφ hacc (ix1 r)
      = ∑ k : Fin 128, x (ix2 r k) * x (ix2 r k) := by
  refine (Ideal.multiReduction_add_single (mulf x x) 0x00000000#32 reduces_S8192x128_S8192 hφ hacc (ix1 r)).trans ?_
  refine Finset.sum_congr rfl fun k _ => ?_
  exact congrArg (fun i => x i * x i) (funext fun a => Fin.ext (by match a with | ⟨0, _⟩ => rfl | ⟨1, _⟩ => rfl))

/-- The lane sum of a 100-wide block: row `r`'s sum, without a leading zero. -/
theorem sum_classes_apply (y : FVec Ideal S8192x100 .f32) (hφ : FKind.Formats FTy.f32)
    (hacc : (0x00000000#32 : BitVec FTy.f32.bits) = FKind.add.neutral .f32 hφ) (r : Fin 8192) :
    multiReduction .add [1] S8192 y 0x00000000#32 reduces_S8192x100_S8192 hφ hacc (ix1 r) = ∑ c : Fin 100, y (ix2 r c) := by
  refine (Ideal.multiReduction_add_single y 0x00000000#32 reduces_S8192x100_S8192 hφ hacc (ix1 r)).trans ?_
  refine Finset.sum_congr rfl fun k _ => ?_
  exact congrArg y (funext fun a => Fin.ext (by match a with | ⟨0, _⟩ => rfl | ⟨1, _⟩ => rfl))

/-! ## The product with the transposed class means -/

/-- The matrix product's dimensions: the feature block's lanes against the transposed means' rows. -/
abbrev mm : DotDims S8192x128 S128x100 S8192x100 := dot_S8192x128_S128x100_S8192x100_1_0_0_1_n_n

theorem lhs_row (i : S8192x100.Idx) (q : mm.contr.Idx) : (mm.lhsIdx i q 0).val = (i 0).val := by
  unfold DotDims.lhsIdx
  rw [dif_neg (show ¬(0 : Fin S8192x128.rank) ∈ mm.lhsBatch by decide), dif_pos (show (0 : Fin S8192x128.rank) ∈ mm.lhsNonContracting by decide)]
  rfl
theorem lhs_lane (i : S8192x100.Idx) (q : mm.contr.Idx) : (mm.lhsIdx i q 1).val = (q ⟨0, by decide⟩).val :=
  mm.lhsIdx_val_of_single rfl i q
theorem rhs_lane (i : S8192x100.Idx) (q : mm.contr.Idx) : (mm.rhsIdx i q 0).val = (q ⟨0, by decide⟩).val :=
  mm.rhsIdx_val_of_single rfl i q
theorem rhs_class (i : S8192x100.Idx) (q : mm.contr.Idx) : (mm.rhsIdx i q 1).val = (i 1).val := by
  unfold DotDims.rhsIdx
  rw [dif_neg (show ¬(1 : Fin S128x100.rank) ∈ mm.rhsBatch by decide), dif_pos (show (1 : Fin S128x100.rank) ∈ mm.rhsNonContracting by decide)]
  rfl

/-- The product into the zero accumulator, at `(r, c)`: the inner product of feature row `r` and class mean `c`. -/
theorem product_apply (a : FVec Ideal S8192x128 .bf16) (b : FVec Ideal S100x128 .bf16) (r : Fin 8192) (c : Fin 100) :
    matmul mm none a (transpose S128x100 [1, 0] b transposes_S100x128_p1_0_S128x100) (constant S8192x100 .f32 0x00000000#32) (ix2 r c)
      = ∑ k : Fin 128, a (ix2 r k) * b (ix2 c k) := by
  refine (Ideal.matmul_constant_zero_apply mm none a _ (ix2 r c)).trans ?_
  rw [← Equiv.sum_comp (contrEquiv1 mm 128 rfl rfl).symm]
  refine Finset.sum_congr rfl fun k _ => ?_
  have hk := contrEquiv1_symm_val mm 128 rfl rfl k
  have el : mm.lhsIdx (ix2 r c) ((contrEquiv1 mm 128 rfl rfl).symm k) = ix2 r k := funext fun a => Fin.ext (by
    match a with
    | ⟨0, _⟩ => exact lhs_row _ _
    | ⟨1, _⟩ => exact (lhs_lane _ _).trans hk)
  have er : mm.rhsIdx (ix2 r c) ((contrEquiv1 mm 128 rfl rfl).symm k) = ix2 k c := funext fun a => Fin.ext (by
    match a with
    | ⟨0, _⟩ => exact (rhs_lane _ _).trans hk
    | ⟨1, _⟩ => exact rhs_class _ _)
  rw [el, er, transpose_ix2_apply]

/-! ## A parameter row over the feature rows -/

/-- A parameter row, re-cast to its own shape and broadcast over the 8192 rows, reads at `(r, c)` the parameter of class `c`. -/
theorem param_over_rows (p : FVec Ideal S1x100 .f32) (r : Fin 8192) (c : Fin 100) :
    broadcastTo S8192x100 (shapeCast S1x100 p shapeCasts_S1x100_S1x100) broadcasts_S1x100_S8192x100 (ix2 r c) = p (ix2 (0 : Fin 1) c) := by
  rw [shapeCast_self]
  exact broadcastTo_1b_ab_apply p broadcasts_S1x100_S8192x100 r c

/-! ## Entrywise operations at an index -/

theorem sqrt_at (a : FVec Ideal S8192x100 .f32) (i : S8192x100.Idx) : sqrt a i = Ideal.sqrt (a i) := rfl
theorem exp_at (a : FVec Ideal S8192x100 .f32) (i : S8192x100.Idx) : exp a i = Ideal.exp (a i) := rfl
theorem log_at (a : FVec Ideal S8192x100 .f32) (i : S8192x100.Idx) : log a i = Ideal.log (a i) := rfl

/-! ## The payloads at an index -/

/-- The clamped distance of feature row `r` from class mean `c`, the squared class norm taken from parameter row 0. -/
theorem distance_apply (x : FVec Ideal S8192x128 .f32) (mv : FVec Ideal S100x128 .f32) (p0 : FVec Ideal S1x100 .f32)
    (r : Fin 8192) (c : Fin 100) :
    k0_pay2 (F := Ideal) x mv p0 (ix2 r c)
      = dist (sqNorm fun k => x (ix2 r k)) (p0 (ix2 (0 : Fin 1) c)) (inner (fun k => x (ix2 r k)) fun k => mv (ix2 c k)) := by
  unfold k0_pay2
  simp only [sqrt_at, maximumf_apply, subf_apply, addf_apply, mulf_apply, broadcast_apply, column_over_classes, param_over_rows]
  unfold Cert.Openmax.dist
  refine congrArg Ideal.sqrt (congrArg₂ max (congrArg₂ (· - ·) (congrArg₂ (· + ·) ?_ rfl) (congrArg₂ (· * ·) rfl ?_)) rfl)
  · refine (sum_squares_apply x _ _ r).trans ?_
    unfold sqNorm; rw [zero_add]
  · exact product_apply _ _ r c

/-- The first factor of a score, `exp (0 - d)`. -/
theorem decay_apply (x : FVec Ideal S8192x128 .f32) (mv : FVec Ideal S100x128 .f32) (p0 : FVec Ideal S1x100 .f32)
    (r : Fin 8192) (c : Fin 100) :
    k0_pay3 (F := Ideal) x mv p0 (ix2 r c) = Ideal.exp (0 - k0_pay2 (F := Ideal) x mv p0 (ix2 r c)) := by
  unfold k0_pay3
  simp only [exp_at, subf_apply, broadcast_apply]
  show Ideal.exp (Ideal.ofBits .f32 0x00000000#32 - _) = _
  rw [Ideal.ofBits_zero_f32]

/-- The exponent's argument, `d + exp (shape * log (max ((d - loc) * inv) 0))`. -/
theorem exponent_apply (x : FVec Ideal S8192x128 .f32) (mv : FVec Ideal S100x128 .f32) (p0 p1 p2 p3 : FVec Ideal S1x100 .f32)
    (r : Fin 8192) (c : Fin 100) :
    k0_pay4 (F := Ideal) x mv p0 p1 p2 p3 (ix2 r c)
      = k0_pay2 (F := Ideal) x mv p0 (ix2 r c) + Ideal.exp (p3 (ix2 (0 : Fin 1) c) * Ideal.log (max
          ((k0_pay2 (F := Ideal) x mv p0 (ix2 r c) - p2 (ix2 (0 : Fin 1) c)) * p1 (ix2 (0 : Fin 1) c)) 0)) := by
  unfold k0_pay4
  simp only [addf_apply, exp_at, mulf_apply, log_at, maximumf_apply, subf_apply, broadcast_apply, param_over_rows]
  show _ + Ideal.exp (_ * Ideal.log (max _ (Ideal.ofBits .f32 0x00000000#32))) = _
  rw [Ideal.ofBits_zero_f32]

/-- The joined block at `(r, j)`: for `j < 100` the difference `a - exp (z - b)` of the two operands there, and in
    column 100 one minus the row's sum of those differences. -/
theorem joined_apply (a b : FVec Ideal S8192x100 .f32) (z : Ideal .f32) (r : Fin 8192) (j : Fin 101) :
    k0_pay1 (F := Ideal) a b z (ix2 r j)
      = if h : j.val < 100 then a (ix2 r (⟨j.val, h⟩ : Fin 100)) - Ideal.exp (z - b (ix2 r (⟨j.val, h⟩ : Fin 100)))
        else Ideal.ofBits .f32 0x3F800000#32 - ∑ c : Fin 100, (a (ix2 r c) - Ideal.exp (z - b (ix2 r c))) := by
  unfold k0_pay1
  by_cases h : j.val < 100
  · rw [dif_pos h]
    refine (concatenate_pair_apply_left (s₁ := S8192x100) (s₂ := S8192x1) (1 : Fin 2) _ _
      concatenates_S8192x100_S8192x1_S8192x101_d1 (ix2 r j) rfl (ix2 r (⟨j.val, h⟩ : Fin 100))
      (fun b => by match b with | ⟨0, _⟩ => rfl | ⟨1, _⟩ => rfl)).trans ?_
    rfl
  · have hj : j.val = 100 := by have := j.isLt; omega
    rw [dif_neg h]
    refine (concatenate_pair_apply_right (s₁ := S8192x100) (s₂ := S8192x1) (1 : Fin 2) _ _
      concatenates_S8192x100_S8192x1_S8192x101_d1 (ix2 r j) rfl rfl (ix2 r (0 : Fin 1))
      (fun b hb => by match b with | ⟨0, _⟩ => rfl | ⟨1, _⟩ => exact absurd rfl hb)
      (by show 0 + 100 = j.val; omega)).trans ?_
    simp only [subf_apply, broadcast_apply, column_apply]
    refine congrArg₂ (· - ·) rfl ((sum_classes_apply _ _ _ r).trans ?_)
    exact Finset.sum_congr rfl fun c _ => rfl

/-- The whole block at `(r, j)`: row `r`'s scores from the feature row, the class means and the four parameter rows,
    then one minus their sum. -/
theorem block_apply (x : FVec Ideal S8192x128 .f32) (mv : FVec Ideal S100x128 .f32) (p0 p1 p2 p3 : FVec Ideal S1x100 .f32)
    (r : Fin 8192) (j : Fin 101) :
    k0_pay1 (F := Ideal) (k0_pay3 (F := Ideal) x mv p0) (k0_pay4 (F := Ideal) x mv p0 p1 p2 p3) (Ideal.ofBits .f32 0x00000000#32) (ix2 r j)
      = rowOf (kernelScore (fun k => x (ix2 r k)) (fun c k => mv (ix2 c k)) (fun c => p0 (ix2 (0 : Fin 1) c))
          (fun c => p1 (ix2 (0 : Fin 1) c)) (fun c => p2 (ix2 (0 : Fin 1) c)) (fun c => p3 (ix2 (0 : Fin 1) c))) j := by
  rw [joined_apply, Ideal.ofBits_zero_f32, word_one]
  unfold rowOf kernelScore kernelEntry
  simp only [decay_apply, exponent_apply, distance_apply, zero_add]

end Cert.KernelIdeal.Block

end
-- ==== Proof.KernelIdealResult.lean ====
/-
  The kernel's result array, read at the extended reals.

  The host stacks four rows of 100 parameters before the launch — each class's squared norm (the sum of its mean's
  squares), the reciprocal of its scale, its location and its shape — and the region then writes, at grid point
  `t`, rows `8192 t .. 8192 t + 8191` of the result: the block the body computes from those rows of the features,
  all the class means and all four parameter rows. The 32 blocks tile the array, so the array after the run is
  ONE function of the argument arrays, row by row: the 100 scores of the row, then one minus their sum.
-/
import proofs.«104863_j13365938225589_2_alg».proof.Proof.KernelIdealLaunched
import proofs.«104863_j13365938225589_2_alg».proof.Proof.KernelIdealBlock
import Idealize.ShloMosaic.Lib.Pipeline.Value
import Idealize.ShloMosaic.Lib.StableHlo.Run
import Idealize.ShloMosaic.Lib.ValueIdx
import Idealize.ShloMosaic.PureOps.Ideal.Laws

noncomputable section

namespace Cert.KernelIdeal.Result

open Cert.KernelIdeal Cert.KernelIdeal.Gen Cert.KernelIdeal.Launched Idealize.ShloMosaic Idealize.ShloMosaic.TcCoe Idealize.SL.Sem
open Idealize.ShloMosaic.ValueIdx Idealize.ShloMosaic.StableHlo
open Idealize.ShloMosaic.Pipeline (Dat)
open Cert.Openmax Cert.KernelIdeal.Block

variable (m : (ℓ : Loc nD τ sig) → Buf (Elt Ideal) ℓ) (ρ : Dev nD → PrngReg)

/-! ## The stacked parameter rows -/

/-- The ten host operations before the stacking. -/
abbrev firstTen {F : FTy → Type} [FloatOps F] : List (HloOp τ sig (Elt F)) :=
  [ StableHlo.binary main_arg1 main_arg1 main_v0 (mulf : (⟨S100x128, .f32⟩ : BufTy).Contents (Elt F) → (⟨S100x128, .f32⟩ : BufTy).Contents (Elt F) → (⟨S100x128, .f32⟩ : BufTy).Contents (Elt F)),
    StableHlo.nullary main_cst (constant S_ .f32 0x00000000#32),
    StableHlo.binary main_v0 main_cst main_v1 ((fun x v => Host.reduceAdd x v reducesTo_S100x128_S100_d1 h_S_) : (⟨S100x128, .f32⟩ : BufTy).Contents (Elt F) → (⟨S_, .f32⟩ : BufTy).Contents (Elt F) → (⟨S100, .f32⟩ : BufTy).Contents (Elt F)),
    StableHlo.nullary main_cst_0 (constant S_ .f32 0x3F800000#32),
    StableHlo.unary main_cst_0 main_v2 (broadcastInDim S100 ![] bcast_S_S100 : (⟨S_, .f32⟩ : BufTy).Contents (Elt F) → (⟨S100, .f32⟩ : BufTy).Contents (Elt F)),
    StableHlo.binary main_v2 main_arg4 main_v3 (Host.divf : (⟨S100, .f32⟩ : BufTy).Contents (Elt F) → (⟨S100, .f32⟩ : BufTy).Contents (Elt F) → (⟨S100, .f32⟩ : BufTy).Contents (Elt F)),
    StableHlo.unary main_v1 main_v4 (broadcastInDim S1x100 ![1] bcast_S100_S1x100_1 : (⟨S100, .f32⟩ : BufTy).Contents (Elt F) → (⟨S1x100, .f32⟩ : BufTy).Contents (Elt F)),
    StableHlo.unary main_v3 main_v5 (broadcastInDim S1x100 ![1] bcast_S100_S1x100_1 : (⟨S100, .f32⟩ : BufTy).Contents (Elt F) → (⟨S1x100, .f32⟩ : BufTy).Contents (Elt F)),
    StableHlo.unary main_arg3 main_v6 (broadcastInDim S1x100 ![1] bcast_S100_S1x100_1 : (⟨S100, .f32⟩ : BufTy).Contents (Elt F) → (⟨S1x100, .f32⟩ : BufTy).Contents (Elt F)),
    StableHlo.unary main_arg2 main_v7 (broadcastInDim S1x100 ![1] bcast_S100_S1x100_1 : (⟨S100, .f32⟩ : BufTy).Contents (Elt F) → (⟨S1x100, .f32⟩ : BufTy).Contents (Elt F)) ]

/-- Core `c`'s buffers after those ten. -/
def beforeStack (c : Dev nD) : Valuation τ sig (Elt Ideal) := StableHlo.after (firstTen (F := Ideal)) (fun b => m (c, b))

/-- The parameter array the region finds is the four rows, stacked. -/
theorem params_stacked (c : Dev nD) :
    (atEntry m c main_v8 : S4x100.Idx → EReal)
      = concatenate S4x100 0 [⟨S1x100, beforeStack m c (Proc.devRef .tc main_v4)⟩, ⟨S1x100, beforeStack m c (Proc.devRef .tc main_v5)⟩,
          ⟨S1x100, beforeStack m c (Proc.devRef .tc main_v6)⟩, ⟨S1x100, beforeStack m c (Proc.devRef .tc main_v7)⟩]
          concatenates_S1x100_S1x100_S1x100_S1x100_S4x100_d0 := by
  show StableHlo.after (firstTen (F := Ideal) ++ [StableHlo.nary ![main_v4, main_v5, main_v6, main_v7] main_v8 (fun u => concatenate S4x100 0 [⟨S1x100, u 0⟩, ⟨S1x100, u 1⟩, ⟨S1x100, u 2⟩, ⟨S1x100, u 3⟩] concatenates_S1x100_S1x100_S1x100_S1x100_S4x100_d0)]) (fun b => m (c, b)) (Proc.devRef .tc main_v8) = _
  rw [StableHlo.after_append]
  simp only [StableHlo.after_cons, StableHlo.after_nil]
  rw [StableHlo.nary_result]
  rfl

/-- Row 0: each class's squared norm, as the host sums it. -/
theorem norms_row (c : Dev nD) :
    (beforeStack m c (Proc.devRef .tc main_v4) : S1x100.Idx → EReal)
      = broadcastInDim S1x100 ![1] bcast_S100_S1x100_1 (Host.reduceAdd (F := Ideal) (mulf (m (c, main_arg1)) (m (c, main_arg1)))
          (constant (F := Ideal) S_ .f32 0x00000000#32) reducesTo_S100x128_S100_d1 h_S_) := by
  dsimp only [beforeStack, firstTen]
  after_results

/-- Row 1: the reciprocal of each class's scale. -/
theorem recips_row (c : Dev nD) :
    (beforeStack m c (Proc.devRef .tc main_v5) : S1x100.Idx → EReal)
      = broadcastInDim S1x100 ![1] bcast_S100_S1x100_1 (Host.divf (F := Ideal)
          (broadcastInDim S100 ![] bcast_S_S100 (constant (F := Ideal) S_ .f32 0x3F800000#32)) (m (c, main_arg4))) := by
  dsimp only [beforeStack, firstTen]
  after_results

/-- Row 2: the locations. -/
theorem locs_row (c : Dev nD) :
    (beforeStack m c (Proc.devRef .tc main_v6) : S1x100.Idx → EReal)
      = broadcastInDim S1x100 ![1] bcast_S100_S1x100_1 (m (c, main_arg3)) := by
  dsimp only [beforeStack, firstTen]
  after_results

/-- Row 3: the shapes. -/
theorem shapes_row (c : Dev nD) :
    (beforeStack m c (Proc.devRef .tc main_v7) : S1x100.Idx → EReal)
      = broadcastInDim S1x100 ![1] bcast_S100_S1x100_1 (m (c, main_arg2)) := by
  dsimp only [beforeStack, firstTen]
  after_results

/-! ## The parameter array at an index -/

/-- 100 values laid as a 1 x 100 row read, at `(0, j)`, the value of class `j`. -/
theorem as_row_apply (v : FVec Ideal S100 .f32) (j : Fin 100) :
    broadcastInDim S1x100 ![1] bcast_S100_S1x100_1 v (ix2 (0 : Fin 1) j) = v (ix1 j) :=
  broadcastInDim_apply _ bcast_S100_S1x100_1 v (ix2 (0 : Fin 1) j) (ix1 j) (fun a => match a with
    | ⟨0, _⟩ => by show j.val = if (100 : ℕ) = 1 then 0 else j.val; rw [if_neg (by decide)])

/-- The host's sum of a class mean's squares is `sqNorm` of that mean. -/
theorem class_norm_apply (MV : FVec Ideal S100x128 .f32) (j : Fin 100) :
    Host.reduceAdd (F := Ideal) (mulf MV MV) (constant (F := Ideal) S_ .f32 0x00000000#32) reducesTo_S100x128_S100_d1 h_S_ (ix1 j)
      = sqNorm (fun k => MV (ix2 j k)) := by
  simp only [Host.reduceAdd, Ideal.hostReduceAdd_def]
  rw [Ideal.hostReduceAdd_single reducesTo_S100x128_S100_d1 (by decide)]
  unfold sqNorm
  refine congrArg₂ (· + ·) Ideal.ofBits_zero_f32 (Finset.sum_congr rfl fun k _ => ?_)
  exact congrArg (fun i => MV i * MV i) (funext fun a => Fin.ext (by match a with | ⟨0, _⟩ => rfl | ⟨1, _⟩ => rfl))

/-- The host's `1 / scale`, at class `j`. -/
theorem recip_apply (SC : FVec Ideal S100 .f32) (j : Fin 100) :
    Host.divf (F := Ideal) (broadcastInDim S100 ![] bcast_S_S100 (constant (F := Ideal) S_ .f32 0x3F800000#32)) SC (ix1 j)
      = Ideal.div 1 (SC (ix1 j)) := by
  show Ideal.div (broadcastInDim S100 ![] bcast_S_S100 (constant (F := Ideal) S_ .f32 0x3F800000#32) (ix1 j)) (SC (ix1 j)) = _
  rw [broadcastInDim_apply _ bcast_S_S100 _ (ix1 j) ix0 (fun a => a.elim0), constant_apply, word_one]

/-- Row `q` of a stack of four 1 x 100 rows, at class `j`, is row `q` at `(0, j)`. -/
theorem stack_apply (a0 a1 a2 a3 : S1x100.Idx → EReal) (j : Fin 100) :
    let st := concatenate S4x100 0 [⟨S1x100, a0⟩, ⟨S1x100, a1⟩, ⟨S1x100, a2⟩, ⟨S1x100, a3⟩] concatenates_S1x100_S1x100_S1x100_S1x100_S4x100_d0
    st (ix2 (0 : Fin 4) j) = a0 (ix2 (0 : Fin 1) j) ∧ st (ix2 (1 : Fin 4) j) = a1 (ix2 (0 : Fin 1) j)
      ∧ st (ix2 (2 : Fin 4) j) = a2 (ix2 (0 : Fin 1) j) ∧ st (ix2 (3 : Fin 4) j) = a3 (ix2 (0 : Fin 1) j) := by
  intro st
  have off : ∀ b : Fin S1x100.rank, b.cast (rfl : S1x100.rank = S4x100.rank) ≠ (0 : Fin 2) →
      ∀ q : Fin 4, ((ix2 (0 : Fin 1) j : S1x100.Idx) b).val = ((ix2 q j : S4x100.Idx) (b.cast rfl)).val := fun b hb q => by
    match b with
    | ⟨0, _⟩ => exact absurd rfl hb
    | ⟨1, _⟩ => rfl
  exact ⟨concatenate_apply_piece (0 : Fin 2) [⟨S1x100, a0⟩, ⟨S1x100, a1⟩, ⟨S1x100, a2⟩, ⟨S1x100, a3⟩] _ (ix2 (0 : Fin 4) j) 0 (by show 0 < 4; omega) S1x100 a0 rfl rfl 0 rfl (ix2 (0 : Fin 1) j) (fun b hb => off b hb 0) rfl,
    concatenate_apply_piece (0 : Fin 2) [⟨S1x100, a0⟩, ⟨S1x100, a1⟩, ⟨S1x100, a2⟩, ⟨S1x100, a3⟩] _ (ix2 (1 : Fin 4) j) 1 (by show 1 < 4; omega) S1x100 a1 rfl rfl 1 rfl (ix2 (0 : Fin 1) j) (fun b hb => off b hb 1) rfl,
    concatenate_apply_piece (0 : Fin 2) [⟨S1x100, a0⟩, ⟨S1x100, a1⟩, ⟨S1x100, a2⟩, ⟨S1x100, a3⟩] _ (ix2 (2 : Fin 4) j) 2 (by show 2 < 4; omega) S1x100 a2 rfl rfl 2 rfl (ix2 (0 : Fin 1) j) (fun b hb => off b hb 2) rfl,
    concatenate_apply_piece (0 : Fin 2) [⟨S1x100, a0⟩, ⟨S1x100, a1⟩, ⟨S1x100, a2⟩, ⟨S1x100, a3⟩] _ (ix2 (3 : Fin 4) j) 3 (by show 3 < 4; omega) S1x100 a3 rfl rfl 3 rfl (ix2 (0 : Fin 1) j) (fun b hb => off b hb 3) rfl⟩

/-- The parameter array the region finds, entry by entry: squared class norms, reciprocal scales, locations, shapes. -/
theorem params_apply (c : Dev nD) (j : Fin 100) :
    atEntry m c main_v8 (ix2 (0 : Fin 4) j) = sqNorm (fun k => m (c, main_arg1) (ix2 j k))
      ∧ atEntry m c main_v8 (ix2 (1 : Fin 4) j) = Ideal.div 1 (m (c, main_arg4) (ix1 j))
      ∧ atEntry m c main_v8 (ix2 (2 : Fin 4) j) = m (c, main_arg3) (ix1 j)
      ∧ atEntry m c main_v8 (ix2 (3 : Fin 4) j) = m (c, main_arg2) (ix1 j) := by
  have hs := stack_apply (beforeStack m c (Proc.devRef .tc main_v4)) (beforeStack m c (Proc.devRef .tc main_v5))
    (beforeStack m c (Proc.devRef .tc main_v6)) (beforeStack m c (Proc.devRef .tc main_v7)) j
  rw [← params_stacked m c] at hs
  obtain ⟨h0, h1, h2, h3⟩ := hs
  refine ⟨h0.trans ?_, h1.trans ?_, h2.trans ?_, h3.trans ?_⟩
  · rw [norms_row, as_row_apply, class_norm_apply]
  · rw [recips_row, as_row_apply, recip_apply]
  · rw [locs_row, as_row_apply]
  · rw [shapes_row, as_row_apply]

/-! ## The windows' blocks, read -/

theorem hz : (![0, 0] : Fin 2 → Nat) = fun _ => 0 := funext fun a => by fin_cases a <;> rfl

/-- The printed index maps over the 32 grid points: the features and the result move one block of 8192 rows per
    point; the class means and the parameters stay. -/
theorem block_indices : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

theorem point_lt (t : Fin cfg0.N) : t.val < 32 := by
  have h := t.isLt
  have hN : cfg0.N = 32 := N_0
  omega

/-- Row `r` of the feature block at point `t` is row `8192 t + r` of the features. -/
theorem features_block (c : Dev nD) (t : Fin cfg0.N) (r : Fin 8192) (k : Fin 128) :
    blockAt m c 0 t (ix2 r k)
      = atEntry m c main_arg0 (ix2 (⟨8192 * t.val + r.val, by have := point_lt t; omega⟩ : Fin 262144) k) := by
  show atEntry m c main_arg0 (((cfg0.win 0).blk t).view.emb (ix2 r k)) = _
  refine congrArg (atEntry m c main_arg0) (funext fun a => Fin.ext ?_)
  obtain ⟨e0, e1, -⟩ := block_indices t
  match a with
  | ⟨0, _⟩ => show win0_0.index t (0 : Fin 2) * 8192 + 1 * r.val = 8192 * t.val + r.val; omega
  | ⟨1, _⟩ => show win0_0.index t (1 : Fin 2) * 128 + 1 * k.val = k.val; omega

/-- The class-mean block is the whole matrix at every point. -/
theorem means_block (c : Dev nD) (t : Fin cfg0.N) (j : Fin 100) (k : Fin 128) :
    blockAt m c 1 t (ix2 j k) = atEntry m c main_arg1 (ix2 j k) := by
  show atEntry m c main_arg1 (((cfg0.win 1).blk t).view.emb (ix2 j k)) = _
  refine congrArg (atEntry m c main_arg1) (funext fun a => Fin.ext ?_)
  obtain ⟨-, -, e2, e3, -⟩ := block_indices t
  match a with
  | ⟨0, _⟩ => show win0_1.index t (0 : Fin 2) * 100 + 1 * j.val = j.val; omega
  | ⟨1, _⟩ => show win0_1.index t (1 : Fin 2) * 128 + 1 * k.val = k.val; omega

/-- The parameter block is the whole parameter array at every point. -/
theorem params_block (c : Dev nD) (t : Fin cfg0.N) (q : Fin 4) (j : Fin 100) :
    blockAt m c 2 t (ix2 q j) = atEntry m c main_v8 (ix2 q j) := by
  show atEntry m c main_v8 (((cfg0.win 2).blk t).view.emb (ix2 q j)) = _
  refine congrArg (atEntry m c main_v8) (funext fun a => Fin.ext ?_)
  obtain ⟨-, -, -, -, e4, e5, -⟩ := block_indices t
  match a with
  | ⟨0, _⟩ => show win0_2.index t (0 : Fin 2) * 4 + 1 * q.val = q.val; omega
  | ⟨1, _⟩ => show win0_2.index t (1 : Fin 2) * 100 + 1 * j.val = j.val; omega

/-- A load of parameter row `q` reads, at `(0, j)`, the parameter array at `(q, j)`. -/
theorem row0_load (p : Vec Ideal S4x100 .f32) (j : Fin 100) : View.ld (Val := Elt Ideal) p paramRow0 (ix2 (0 : Fin 1) j) = p (ix2 (0 : Fin 4) j) :=
  congrArg p (funext fun a => Fin.ext (by match a with | ⟨0, _⟩ => rfl | ⟨1, _⟩ => show 0 + 1 * j.val = j.val; omega))
theorem row1_load (p : Vec Ideal S4x100 .f32) (j : Fin 100) : View.ld (Val := Elt Ideal) p paramRow1 (ix2 (0 : Fin 1) j) = p (ix2 (1 : Fin 4) j) :=
  congrArg p (funext fun a => Fin.ext (by match a with | ⟨0, _⟩ => rfl | ⟨1, _⟩ => show 0 + 1 * j.val = j.val; omega))
theorem row2_load (p : Vec Ideal S4x100 .f32) (j : Fin 100) : View.ld (Val := Elt Ideal) p paramRow2 (ix2 (0 : Fin 1) j) = p (ix2 (2 : Fin 4) j) :=
  congrArg p (funext fun a => Fin.ext (by match a with | ⟨0, _⟩ => rfl | ⟨1, _⟩ => show 0 + 1 * j.val = j.val; omega))
theorem row3_load (p : Vec Ideal S4x100 .f32) (j : Fin 100) : View.ld (Val := Elt Ideal) p paramRow3 (ix2 (0 : Fin 1) j) = p (ix2 (3 : Fin 4) j) :=
  congrArg p (funext fun a => Fin.ext (by match a with | ⟨0, _⟩ => rfl | ⟨1, _⟩ => show 0 + 1 * j.val = j.val; omega))

/-! ## The result as one function of the arrays -/

/-- Row `n` of the result from the feature array, the class means and the stacked parameters. -/
def rowAt (X : S262144x128.Idx → EReal) (MV : S100x128.Idx → EReal) (P : S4x100.Idx → EReal) (n : Fin 262144) (j : Fin 101) : EReal :=
  rowOf (kernelScore (fun k => X (ix2 n k)) (fun c k => MV (ix2 c k)) (fun c => P (ix2 (0 : Fin 4) c))
    (fun c => P (ix2 (1 : Fin 4) c)) (fun c => P (ix2 (2 : Fin 4) c)) (fun c => P (ix2 (3 : Fin 4) c))) j

/-- The whole result array. -/
def whole (X : S262144x128.Idx → EReal) (MV : S100x128.Idx → EReal) (P : S4x100.Idx → EReal) : S262144x101.Idx → EReal :=
  fun i => rowAt X MV P (i 0) (i 1)

/-- What point `t` writes back is block `t` of `whole` of the arrays as the region finds them: the body's block is
    `rowOf` of the row's scores (`block_apply`), its feature rows are rows `8192 t ..` of the feature array, and the class
    means and parameters are the whole arrays at every point. -/
theorem written_back (c : Dev nD) (t : Fin cfg0.N) :
    (data m 0 c).flushed 3 t
      = ((cfg0.win 3).blk t).view.read (Elt Ideal) (whole (atEntry m c main_arg0) (atEntry m c main_arg1) (atEntry m c main_v8)) := by
  show (cfg0.win 3).cut (grid0.coords t) ((data m 0 c).after 3 t) = _
  rw [after_out]
  unfold left
  rw [View.canon_unit_zero hz]
  funext y
  obtain ⟨r, j, rfl⟩ : ∃ (r : Fin 8192) (j : Fin 101), y = ix2 r j := ⟨y 0, y 1, eq_ix2 y⟩
  show computed (blockAt m c 0 t) (blockAt m c 1 t) (blockAt m c 2 t) (ix2 r j)
    = whole (atEntry m c main_arg0) (atEntry m c main_arg1) (atEntry m c main_v8) (((cfg0.win 3).blk t).view.emb (ix2 r j))
  unfold computed
  rw [View.ld_unit_zero (S := S8192x128) hz, View.ld_unit_zero (S := S100x128) hz]
  refine (block_apply (blockAt m c 0 t) (blockAt m c 1 t) (View.ld (Val := Elt Ideal) (blockAt m c 2 t) paramRow0)
    (View.ld (Val := Elt Ideal) (blockAt m c 2 t) paramRow1) (View.ld (Val := Elt Ideal) (blockAt m c 2 t) paramRow2)
    (View.ld (Val := Elt Ideal) (blockAt m c 2 t) paramRow3) r j).trans ?_
  have hemb : ((cfg0.win 3).blk t).view.emb (ix2 r j)
      = ix2 (⟨8192 * t.val + r.val, by have := point_lt t; omega⟩ : Fin 262144) j := by
    funext a; apply Fin.ext
    obtain ⟨-, -, -, -, -, -, e6, e7⟩ := block_indices t
    match a with
    | ⟨0, _⟩ => show win0_3.index t (0 : Fin 2) * 8192 + 1 * r.val = 8192 * t.val + r.val; omega
    | ⟨1, _⟩ => show win0_3.index t (1 : Fin 2) * 101 + 1 * j.val = j.val; omega
  rw [hemb]
  have f0 : (fun k => blockAt m c 0 t (ix2 r k))
      = fun k => atEntry m c main_arg0 (ix2 (⟨8192 * t.val + r.val, by have := point_lt t; omega⟩ : Fin 262144) k) :=
    funext fun k => features_block m c t r k
  have f1 : (fun (c' : Fin 100) (k : Fin 128) => blockAt m c 1 t (ix2 c' k)) = fun c' k => atEntry m c main_arg1 (ix2 c' k) :=
    funext fun c' => funext fun k => means_block m c t c' k
  have g0 : (fun c' : Fin 100 => View.ld (Val := Elt Ideal) (blockAt m c 2 t) paramRow0 (ix2 (0 : Fin 1) c'))
      = fun c' => atEntry m c main_v8 (ix2 (0 : Fin 4) c') :=
    funext fun c' => (row0_load (blockAt m c 2 t) c').trans (params_block m c t 0 c')
  have g1 : (fun c' : Fin 100 => View.ld (Val := Elt Ideal) (blockAt m c 2 t) paramRow1 (ix2 (0 : Fin 1) c'))
      = fun c' => atEntry m c main_v8 (ix2 (1 : Fin 4) c') :=
    funext fun c' => (row1_load (blockAt m c 2 t) c').trans (params_block m c t 1 c')
  have g2 : (fun c' : Fin 100 => View.ld (Val := Elt Ideal) (blockAt m c 2 t) paramRow2 (ix2 (0 : Fin 1) c'))
      = fun c' => atEntry m c main_v8 (ix2 (2 : Fin 4) c') :=
    funext fun c' => (row2_load (blockAt m c 2 t) c').trans (params_block m c t 2 c')
  have g3 : (fun c' : Fin 100 => View.ld (Val := Elt Ideal) (blockAt m c 2 t) paramRow3 (ix2 (0 : Fin 1) c'))
      = fun c' => atEntry m c main_v8 (ix2 (3 : Fin 4) c') :=
    funext fun c' => (row3_load (blockAt m c 2 t) c').trans (params_block m c t 3 c')
  rw [f0, f1, g0, g1, g2, g3]
  rfl

/-! ## The 32 blocks tile the array -/

/-- An index is in point `t`'s block iff each coordinate is in the block's range on its axis. -/
theorem mem_block (t : Fin cfg0.N) (i : S262144x101.Idx) :
    i ∈ ((cfg0.win 3).blk t).view.set
      ↔ ∀ a : Fin 2, win0_3.index t a * S8192x101.size a ≤ (i a).val ∧ (i a).val < win0_3.index t a * S8192x101.size a + S8192x101.size a := by
  show i ∈ ((View.whole main_v9).slice (win0_3.rect t)).set ↔ _
  rw [View.set_slice_whole, Rect.mem_set_unit]
  exact Iff.rfl

/-- Every index of the result lies in the block of the point its row belongs to: row `n` in block `n / 8192`. -/
theorem covered (i : S262144x101.Idx) :
    ∃ t : Fin cfg0.N, (cfg0.win 3).flush t = true ∧ i ∈ ((cfg0.win 3).blk t).view.set := by
  have hi0 : (i 0).val < 262144 := (i 0).isLt
  have hi1 : (i 1).val < 101 := (i 1).isLt
  have hN : cfg0.N = 32 := N_0
  have hlt : (i 0).val / 8192 < cfg0.N := by omega
  refine ⟨⟨(i 0).val / 8192, hlt⟩, flush0_3 _, ?_⟩
  rw [mem_block]
  obtain ⟨-, -, -, -, -, -, e6, e7⟩ := block_indices ⟨(i 0).val / 8192, hlt⟩
  intro a
  match a with
  | ⟨0, _⟩ =>
    show win0_3.index ⟨(i 0).val / 8192, hlt⟩ (0 : Fin 2) * 8192 ≤ (i 0).val
      ∧ (i 0).val < win0_3.index ⟨(i 0).val / 8192, hlt⟩ (0 : Fin 2) * 8192 + 8192
    rw [e6]
    show (i 0).val / 8192 * 8192 ≤ (i 0).val ∧ (i 0).val < (i 0).val / 8192 * 8192 + 8192
    omega
  | ⟨1, _⟩ =>
    show win0_3.index ⟨(i 0).val / 8192, hlt⟩ (1 : Fin 2) * 101 ≤ (i 1).val
      ∧ (i 1).val < win0_3.index ⟨(i 0).val / 8192, hlt⟩ (1 : Fin 2) * 101 + 101
    rw [e7]
    omega

/-- The result array after the run is `whole` of the arrays as the region finds them. -/
theorem final (c : Dev nD) :
    (data m 0 c).arrAt 3 cfg0.N = whole (atEntry m c main_arg0) (atEntry m c main_arg1) (atEntry m c main_v8) :=
  (data m 0 c).arrAt_eq_of_cover 3 _ (fun t _ => written_back m c t) covered

/-! ## The run, read -/

/-- Every weakly fair execution of the idealized kernel ends, without a fault, with the result array at `whole` of
    the features, the class means and the stacked parameters, and the five arguments as launched. -/
theorem run_value : θ_run defs (onTc (τ := τ) (main (F := Ideal))) ⟨m, fun _ => 0, ρ⟩ fun r => ∀ c : Dev nD,
      r.2.mem ((c.tc : Thread nD τ).loc main_v9)
        = whole (atEntry m c main_arg0) (atEntry m c main_arg1) (atEntry m c main_v8)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 3).trans (final m c), kept_of_post m r h c⟩) (run m ρ)

end Cert.KernelIdeal.Result

end
-- ==== Proof.ReferenceRows.lean ====
/-
  The reference's result, read row by row at the extended reals.

  Its @main computes, for feature row `n` and class `c`, the clamped distance from the two squared norms and the
  inner product (a `dot_general` against the transposed class means), the class's score, and in column 100 one
  minus the row's sum of scores; the result concatenates the 262144 x 100 scores with that column. Each stage is
  read at an index by the generated lemmas; what is added here is that the composed index maps pick row `n` of
  the features and row `c` of the class means, and that the two pieces of the concatenation are `rowOf`'s cases.
-/
import proofs.«104863_j13365938225589_2_alg».proof.Proof.Gen.ReferenceIdeal.Read
import proofs.«104863_j13365938225589_2_alg».proof.Proof.Rows
import Idealize.ShloMosaic.Lib.ValueIdx
import Idealize.ShloMosaic.Lib.Pipeline.Value

noncomputable section

namespace Cert.ReferenceIdeal.Rowwise

open Cert.ReferenceIdeal Cert.ReferenceIdeal.Gen Cert.ReferenceIdeal.Read Idealize.ShloMosaic Idealize.ShloMosaic.ValueIdx
open Cert.Openmax

variable (X : FVec Ideal S262144x128 .f32) (MV : FVec Ideal S100x128 .f32) (K L S : FVec Ideal S100 .f32)

/-! ## Where the composed index maps land -/

theorem feature_of_norm (n : Fin 262144) (c : Fin 100) (k : Fin 128) :
    idx_main_v1 (idx_main_v2 (idx_main_v6 (ix2 n c))) k = ix2 n k :=
  funext fun a => Fin.ext (by match a with | ⟨0, _⟩ => rfl | ⟨1, _⟩ => rfl)
theorem mean_of_norm (n : Fin 262144) (c : Fin 100) (k : Fin 128) :
    idx_main_v4 (idx_main_v5 (idx_main_v7 (ix2 n c))) k = ix2 c k :=
  funext fun a => Fin.ext (by match a with | ⟨0, _⟩ => rfl | ⟨1, _⟩ => rfl)
theorem feature_of_product (n : Fin 262144) (c : Fin 100) (k : Fin 128) : lidx_main_v10 (ix2 n c) k = ix2 n k :=
  funext fun a => Fin.ext (by match a with | ⟨0, _⟩ => rfl | ⟨1, _⟩ => rfl)
theorem mean_of_product (n : Fin 262144) (c : Fin 100) (k : Fin 128) : idx_main_v9 (ridx_main_v10 (ix2 n c) k) = ix2 c k :=
  funext fun a => Fin.ext (by match a with | ⟨0, _⟩ => rfl | ⟨1, _⟩ => rfl)
theorem class_of_loc (n : Fin 262144) (c : Fin 100) : idx_main_v17 (idx_main_v18 (ix2 n c)) = ix1 c :=
  funext fun a => Fin.ext (by match a with | ⟨0, _⟩ => rfl)
theorem class_of_scale (n : Fin 262144) (c : Fin 100) : idx_main_v20 (idx_main_v21 (ix2 n c)) = ix1 c :=
  funext fun a => Fin.ext (by match a with | ⟨0, _⟩ => rfl)
theorem class_of_shape (n : Fin 262144) (c : Fin 100) : idx_main_v25 (idx_main_v26 (ix2 n c)) = ix1 c :=
  funext fun a => Fin.ext (by match a with | ⟨0, _⟩ => rfl)
theorem score_of_sum (n : Fin 262144) (z : Fin 1) (k : Fin 100) : idx_main_v35 (idx_main_v36 (ix2 n z)) k = ix2 n k :=
  funext fun a => Fin.ext (by match a with | ⟨0, _⟩ => rfl | ⟨1, _⟩ => rfl)

/-! ## The stages at an index -/

/-- The distance of feature row `n` from class mean `c`. -/
theorem dist_apply (n : Fin 262144) (c : Fin 100) :
    val_main_v16 (F := Ideal) X MV (ix2 n c)
      = dist (sqNorm fun k => X (ix2 n k)) (sqNorm fun k => MV (ix2 c k)) (inner (fun k => X (ix2 n k)) fun k => MV (ix2 c k)) := by
  simp only [val_main_v16_apply, val_main_v15_apply, val_main_v14_apply, val_main_v13_apply, val_main_v12_apply, val_main_v11_apply,
    val_main_v10_apply, val_main_v9_apply, val_main_v8_apply, val_main_v7_apply, val_main_v6_apply, val_main_v5_apply, val_main_v4_apply,
    val_main_v3_apply, val_main_v2_apply, val_main_v1_apply, val_main_v0_apply, val_main_cst_apply, val_main_cst_0_apply,
    val_main_cst_1_apply, val_main_cst_2_apply]
  simp only [feature_of_norm, mean_of_norm, feature_of_product, mean_of_product, Ideal.hostUnary_sqrt_def, Ideal.maximumf_def,
    Ideal.subf_def, Ideal.addf_def, Ideal.mulf_def, Ideal.ofBits_def, Ideal.ofBits_zero_f32]
  rfl

/-- The score of class `c` for feature row `n`. -/
theorem score_apply (n : Fin 262144) (c : Fin 100) :
    val_main_v34 (F := Ideal) X MV K L S (ix2 n c)
      = referenceScore (fun k => X (ix2 n k)) (fun c k => MV (ix2 c k)) (fun c => K (ix1 c)) (fun c => L (ix1 c)) (fun c => S (ix1 c)) c := by
  simp only [val_main_v34_apply, val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v21_apply, val_main_v20_apply, val_main_v19_apply, val_main_v18_apply, val_main_v17_apply,
    val_main_cst_3_apply, val_main_cst_4_apply, dist_apply]
  simp only [class_of_loc, class_of_scale, class_of_shape, Ideal.hostUnary_exp_def, Ideal.hostNegf_def, Ideal.negf_def, Ideal.mulf_def,
    Ideal.subf_def, Ideal.hostPowf_def, Ideal.hostDivf_def, Ideal.maximumf_def, Ideal.ofBits_def, Ideal.ofBits_zero_f32, word_one]
  rfl

/-- Row `n` of the result: the 100 scores, then one minus their sum. -/
theorem row_apply (n : Fin 262144) (j : Fin 101) :
    val_main_v39 (F := Ideal) X MV K L S (ix2 n j)
      = rowOf (referenceScore (fun k => X (ix2 n k)) (fun c k => MV (ix2 c k)) (fun c => K (ix1 c)) (fun c => L (ix1 c)) (fun c => S (ix1 c))) j := by
  unfold val_main_v39 rowOf
  by_cases hj : j.val < 100
  · rw [dif_pos hj, concatenate_pair_apply_left (s₁ := S262144x100) (s₂ := S262144x1) (1 : Fin 2) _ _
      concatenates_S262144x100_S262144x1_S262144x101_d1 (ix2 n j) rfl
      (ix2 n (⟨j.val, hj⟩ : Fin 100)) (fun b => by match b with | ⟨0, _⟩ => rfl | ⟨1, _⟩ => rfl)]
    exact score_apply X MV K L S n ⟨j.val, hj⟩
  · have hj' : j.val = 100 := by have := j.isLt; omega
    rw [dif_neg hj, concatenate_pair_apply_right (s₁ := S262144x100) (s₂ := S262144x1) (1 : Fin 2) _ _
      concatenates_S262144x100_S262144x1_S262144x101_d1 (ix2 n j) rfl rfl
      (ix2 n (0 : Fin 1)) (fun b hb => by match b with | ⟨0, _⟩ => rfl | ⟨1, _⟩ => exact absurd rfl hb)
      (by show 0 + 100 = j.val; omega)]
    simp only [val_main_v38_apply, val_main_v37_apply, val_main_v36_apply, val_main_v35_apply, val_main_cst_5_apply, val_main_cst_6_apply]
    simp only [score_of_sum, score_apply, Ideal.subf_def, Ideal.ofBits_def, Ideal.ofBits_zero_f32, word_one]

end Cert.ReferenceIdeal.Rowwise

end
-- ==== Proof.Bridge.lean ====
/-
  The two results are one function of the arguments.

  Row by row: the reference's row is `rowOf` of its scores, the kernel's row `rowOf` of its own scores fed with the
  stacked parameters. On real arrays with non-negative shapes the two score functions agree once the stacked
  parameters are what the host computes — the squared class norms and the reciprocal scales — so the rows agree,
  the last entry included (it is a function of the scores alone).
-/
import proofs.«104863_j13365938225589_2_alg».proof.Proof.KernelIdealResult
import proofs.«104863_j13365938225589_2_alg».proof.Proof.ReferenceRows

noncomputable section

namespace Cert.Bridge

open Idealize.ShloMosaic Idealize.ShloMosaic.ValueIdx Cert.Openmax

/-- The reference's result is the kernel's whole-array function of the features, the class means and stacked
    parameters `P` that hold, per class, the squared norm, the reciprocal scale, the location and the shape. -/
theorem reference_eq_whole (X : FVec Ideal Cert.ReferenceIdeal.S262144x128 .f32) (MV : FVec Ideal Cert.ReferenceIdeal.S100x128 .f32)
    (K L S : FVec Ideal Cert.ReferenceIdeal.S100 .f32) (P : Cert.KernelIdeal.S4x100.Idx → EReal)
    (hX : ∀ i, ∃ r : ℝ, X i = (r : EReal)) (hMV : ∀ i, ∃ r : ℝ, MV i = (r : EReal)) (hK : ∀ i, ∃ r : ℝ, K i = (r : EReal))
    (hL : ∀ i, ∃ r : ℝ, L i = (r : EReal)) (hS : ∀ i, ∃ r : ℝ, S i = (r : EReal)) (hK0 : ∀ i, (0 : EReal) ≤ K i)
    (hP : ∀ j : Fin 100, P (ix2 (0 : Fin 4) j) = sqNorm (fun k => MV (ix2 j k)) ∧ P (ix2 (1 : Fin 4) j) = Ideal.div 1 (S (ix1 j))
      ∧ P (ix2 (2 : Fin 4) j) = L (ix1 j) ∧ P (ix2 (3 : Fin 4) j) = K (ix1 j)) :
    Cert.ReferenceIdeal.Read.val_main_v39 (F := Ideal) X MV K L S = Cert.KernelIdeal.Result.whole X MV P := by
  funext i
  obtain ⟨n, j, rfl⟩ : ∃ (n : Fin 262144) (j : Fin 101), i = ix2 n j := ⟨i 0, i 1, eq_ix2 i⟩
  rw [Cert.ReferenceIdeal.Rowwise.row_apply]
  show _ = Cert.KernelIdeal.Result.rowAt X MV P n j
  unfold Cert.KernelIdeal.Result.rowAt
  refine congrArg (fun s => rowOf s j) ?_
  choose xr hxr using hX
  choose mr hmr using hMV
  choose kr hkr using hK
  choose lr hlr using hL
  choose sr hsr using hS
  have hk0 : ∀ c : Fin 100, 0 ≤ kr (ix1 c) := fun c => by
    have h := hK0 (ix1 c)
    rw [hkr] at h
    exact_mod_cast h
  have e := kernelScore_eq_referenceScore (fun k => xr (ix2 n k)) (fun c k => mr (ix2 c k)) (fun c => kr (ix1 c))
    (fun c => lr (ix1 c)) (fun c => sr (ix1 c)) hk0
  have hP0 : (fun c => P (ix2 (0 : Fin 4) c)) = fun c => sqNorm (fun i => ((mr (ix2 c i) : ℝ) : EReal)) :=
    funext fun c => by rw [(hP c).1]; simp only [hmr]
  have hP1 : (fun c => P (ix2 (1 : Fin 4) c)) = fun c => Ideal.div 1 ((sr (ix1 c) : ℝ) : EReal) :=
    funext fun c => by rw [(hP c).2.1, hsr]
  have hP2 : (fun c => P (ix2 (2 : Fin 4) c)) = fun c => ((lr (ix1 c) : ℝ) : EReal) :=
    funext fun c => by rw [(hP c).2.2.1, hlr]
  have hP3 : (fun c => P (ix2 (3 : Fin 4) c)) = fun c => ((kr (ix1 c) : ℝ) : EReal) :=
    funext fun c => by rw [(hP c).2.2.2, hkr]
  rw [hP0, hP1, hP2, hP3]
  simp only [hxr, hmr, hkr, hlr, hsr]
  exact e.symm

end Cert.Bridge

end
-- ==== Proof.Domain.lean ====
/-
  What the precondition says of the arguments, at the extended reals: every entry of the five argument arrays
  is a real number (`|x| < +∞` excludes both infinities), and every shape parameter is non-negative.
-/
import proofs.«104863_j13365938225589_2_alg».proof.Pre_finite_inputs
import proofs.«104863_j13365938225589_2_alg».proof.Proof.Gen.Pre_finite_inputs
import Idealize.ShloMosaic.Lib.ReduceAll
import Idealize.ShloMosaic.PureOps.Ideal.Laws

noncomputable section

namespace Cert.Openmax.Domain

open Idealize.ShloMosaic Cert.Pre_finite_inputs

/-- A scalar array has one index. -/
instance : Subsingleton S_.Idx := ⟨fun a b => funext fun d => d.elim0⟩

/-- `max x (-x) < +∞` on the extended reals leaves only the reals: at either infinity the maximum is `⊤`. -/
theorem real_of_abs_lt_inf (x : EReal)
    (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => simp [Ideal.cmp] at h
  | coe r => exact ⟨r, rfl⟩
  | top => simp [Ideal.cmp] at h

/-- The printed predicate, all ones, gives: the five arrays real-valued, the shapes (`x2`) non-negative. -/
theorem of_pre (x0 : FVec Ideal S262144x128 .f32) (x1 : FVec Ideal S100x128 .f32) (x2 x3 x4 : FVec Ideal S100 .f32)
    (h : Cert.Pre_finite_inputs.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ (∀ i, ∃ r : ℝ, x4 i = (r : EReal)) ∧ ∀ i, (0 : EReal) ≤ x2 i := by
  have h0 := congrFun h (fun a => a.elim0)
  dsimp only [Cert.Pre_finite_inputs.fn, Cert.Pre_finite_inputs.fn_part1] at h0
  obtain ⟨h0, g5⟩ := IntOp.andi_eq_one.1 h0
  obtain ⟨h0, g4⟩ := IntOp.andi_eq_one.1 h0
  obtain ⟨h0, g3⟩ := IntOp.andi_eq_one.1 h0
  obtain ⟨h0, g2⟩ := IntOp.andi_eq_one.1 h0
  obtain ⟨g0, g1⟩ := IntOp.andi_eq_one.1 h0
  refine ⟨fun i => real_of_abs_lt_inf _ (Host.reduce_andi_all _ _ _ _ _ g0 i),
    fun i => real_of_abs_lt_inf _ (Host.reduce_andi_all _ _ _ _ _ g1 i),
    fun i => real_of_abs_lt_inf _ (Host.reduce_andi_all _ _ _ _ _ g2 i),
    fun i => real_of_abs_lt_inf _ (Host.reduce_andi_all _ _ _ _ _ g3 i),
    fun i => real_of_abs_lt_inf _ (Host.reduce_andi_all _ _ _ _ _ g4 i), fun i => ?_⟩
  have hi := Host.reduce_andi_all _ _ _ _ _ g5 i
  change Ideal.cmp .oge (x2 i) (Ideal.ofBits .f32 0x00000000#32) = 1#1 at hi
  rw [Ideal.ofBits_zero_f32] at hi
  by_contra hn
  rw [show Ideal.cmp .oge (x2 i) 0 = BitVec.ofBool (decide ((0 : EReal) ≤ x2 i)) from rfl, decide_eq_false hn] at hi
  exact absurd hi (by decide)

end Cert.Openmax.Domain

end
-- ==== Proof.lean ====
/-
  The certificate: the openmax scores of 262144 feature rows against 100 class means, as a pipelined kernel over 32
  blocks of 8192 rows and as a plain array program, are the same function of the arguments on the extended reals,
  for finite arguments and non-negative shape parameters.

  Three of the five conjuncts are runs: each program terminates on every weakly fair execution, faults nowhere and
  leaves its arguments as launched (the kernel's two readings by the pipeline library's launch theorem over the
  body's triple; the reference's by its straight-line run). The idealization rewrote nothing, so the fourth holds
  trivially. The fifth sets the two runs side by side: the kernel's result array is one row-by-row function of
  the features, the class means and the parameters the host stacks for it; the reference's result is a row-by-row
  function of the arguments; and on real arguments with non-negative shapes the rows agree, because multiplying by
  a reciprocal scale and dividing agree once clamped at zero, `exp (k log z)` is `z ^ k` on `[0, ⊤]` for `k ≥ 0`, and
  `exp (-d) - exp (-(d + p)) = exp (-d) (1 - exp (-p))` for a finite distance `d`.
-/
import proofs.«104863_j13365938225589_2_alg».proof.Defs
import proofs.«104863_j13365938225589_2_alg».proof.Proof.Gen.Kernel
import proofs.«104863_j13365938225589_2_alg».proof.Proof.Gen.KernelIdeal
import proofs.«104863_j13365938225589_2_alg».proof.Proof.Gen.ReferenceIdeal
import proofs.«104863_j13365938225589_2_alg».proof.Proof.Gen.Pre_finite_inputs
import proofs.«104863_j13365938225589_2_alg».proof.Proof.Gen.ReferenceIdeal.Run
import proofs.«104863_j13365938225589_2_alg».proof.Proof.Gen.ReferenceIdeal.Read
import proofs.«104863_j13365938225589_2_alg».proof.Proof.KernelLaunched
import proofs.«104863_j13365938225589_2_alg».proof.Proof.KernelIdealLaunched
import proofs.«104863_j13365938225589_2_alg».proof.Proof.KernelIdealResult
import proofs.«104863_j13365938225589_2_alg».proof.Proof.Bridge
import proofs.«104863_j13365938225589_2_alg».proof.Proof.Domain
import Idealize.ShloMosaic.Adequacy
import Idealize.ShloMosaic.Init

noncomputable section

namespace Cert.Proof

open Idealize.ShloMosaic Idealize.SL.Sem

/-- The word-level kernel runs and keeps its arguments. -/
theorem frame_kernel : Cert.frame_Kernel := fun m ρ _ => Cert.Kernel.Launched.arguments_kept m ρ

/-- So does its reading at the extended reals. -/
theorem frame_kernel_ideal : Cert.frame_KernelIdeal := fun m ρ _ => Cert.KernelIdeal.Launched.arguments_kept m ρ

/-- So does the reference: its run, with the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the same result array: the kernel's at its
    whole-array function of the features, the class means and the stacked parameters, which the reference's result
    equals on real arguments with non-negative shapes. -/
theorem algebraic : Cert.algebraic_KernelIdeal_ReferenceIdeal := by
  intro m ρ m' ρ' hpre hagree
  refine ⟨fun c => Cert.KernelIdeal.Result.whole (Cert.KernelIdeal.Launched.atEntry m c Cert.KernelIdeal.main_arg0)
      (Cert.KernelIdeal.Launched.atEntry m c Cert.KernelIdeal.main_arg1) (Cert.KernelIdeal.Launched.atEntry m c Cert.KernelIdeal.main_v8),
    Cert.KernelIdeal.Result.run_value m ρ, ?_⟩
  refine (θ_run Cert.ReferenceIdeal.defs _ _).mono (fun _ h c => ⟨(h c).1.trans ?_, (h c).2⟩)
    (Cert.ReferenceIdeal.Value.run (F := Ideal) m' ρ')
  obtain ⟨hX, hMV, hK, hL, hS, hK0⟩ := Cert.Openmax.Domain.of_pre _ _ _ _ _ (hpre c)
  rw [Cert.ReferenceIdeal.Read.val_main_v39_eq, (hagree c).1, (hagree c).2.1, (hagree c).2.2.1, (hagree c).2.2.2.1, (hagree c).2.2.2.2]
  beta_reduce
  rw [Cert.KernelIdeal.Launched.atEntry_arg0, Cert.KernelIdeal.Launched.atEntry_arg1]
  exact Cert.Bridge.reference_eq_whole _ _ _ _ _ _ hX hMV hK hL hS hK0 (fun j => Cert.KernelIdeal.Result.params_apply m c j)

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference, preserves, algebraic⟩

end Cert.Proof

end
